-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : IVec S50000 32) (main_arg1 : IVec S2x800000 32) (main_arg2 : FVec F S50000x256 .f32) (main_arg3 : FVec F S256x256 .f32) (main_arg4 : FVec F S256 .f32) (main_arg5 : FVec F S256x128 .f32) (main_arg6 : FVec F S128 .f32) : IVec S_ 1 :=
  let main_v0 : FVec F S50000x256 .f32 := Host.absf main_arg2
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S50000 : Shape := ⟨1, ![50000]⟩
abbrev S2x800000 : Shape := ⟨2, ![2, 800000]⟩
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S800000x1 : Shape := ⟨2, ![800000, 1]⟩
abbrev S5000x256 : Shape := ⟨2, ![5000, 256]⟩
abbrev S800000x256 : Shape := ⟨2, ![800000, 256]⟩
abbrev S5000x1 : Shape := ⟨2, ![5000, 1]⟩
abbrev S1x256 : Shape := ⟨2, ![1, 256]⟩
abbrev S50000x128 : Shape := ⟨2, ![50000, 128]⟩
abbrev S5000x128 : Shape := ⟨2, ![5000, 128]⟩
abbrev S800000x128 : Shape := ⟨2, ![800000, 128]⟩
abbrev S1x128 : Shape := ⟨2, ![1, 128]⟩

abbrev nBuf : Space → Nat
  | .hbm => 88
  | .vmem => 28
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000x256, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x256, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000, .f32⟩
  | .hbm, ⟨48, _⟩ => ⟨S800000, .f32⟩
  | .hbm, ⟨49, _⟩ => ⟨S50000, .f32⟩
  | .hbm, ⟨50, _⟩ => ⟨S50000x256, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x256, .f32⟩
  | .hbm, ⟨60, _⟩ => ⟨S800000x1, .f32⟩
  | .hbm, ⟨61, _⟩ => ⟨S800000x256, .f32⟩
  | .hbm, ⟨62, _⟩ => ⟨S800000x256, .f32⟩
  | .hbm, ⟨63, _⟩ => ⟨S_, .f32⟩
  | .hbm, ⟨64, _⟩ => ⟨S50000x256, .f32⟩
  | .hbm, ⟨65, _⟩ => ⟨S800000x1, .i32⟩
  | .hbm, ⟨66, _⟩ => ⟨S50000x256, .f32⟩
  | .hbm, ⟨67, _⟩ => ⟨S50000x1, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S800000x1, .f32⟩
  | .hbm, ⟨80, _⟩ => ⟨S800000x128, .f32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S50000x1, .f32⟩
  | .hbm, ⟨87, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x1, .f32⟩
  | .local _ .vmem, ⟨10, _⟩ => ⟨S5000x1, .f32⟩
  | .local _ .vmem, ⟨11, _⟩ => ⟨S256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S256x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_10 : Ref sig .tc := ⟨.hbm, 70, rfl⟩
abbrev main_v51 : Ref sig .tc := ⟨.hbm, 71, rfl⟩
abbrev main_v52 : Ref sig .tc := ⟨.hbm, 72, rfl⟩
abbrev main_c_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x256_S50000x1_S50000x256_1_0_n_n_0_1_1256_wf : GatherDims.WF S50000x256 S50000x1 S50000x256 [1] [0] [] [0] [] 1 ![1, 256]
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S50000x256.size a
  hwx1_4 : ∀ i : grid1.Coords, EltTy.bits .f32 = 32 ∨ (Rect.block (s := S50000x256) S5000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)

variable [Facts₀]

def gather_S50000x256_S50000x1_S50000x256_1_0_n_n_0_1_1256 : GatherDims S50000x256 S50000x1 S50000x256 where
  offsetDims := [1]
  collapsedSliceDims := [0]
  operandBatchingDims := []
  startIndicesBatchingDims := []
  startIndexMap := [0]
  indexVectorDim := 1
  sliceSizes := ![1, 256]
  wf := gather_S50000x256_S50000x1_S50000x256_1_0_n_n_0_1_1256_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v10) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v49) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000 : Shape := ⟨1, ![50000]⟩
abbrev S2x800000 : Shape := ⟨2, ![2, 800000]⟩
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S800000x1 : Shape := ⟨2, ![800000, 1]⟩
abbrev S800000x256 : Shape := ⟨2, ![800000, 256]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 131
  | .vmem => 0
  | .smem => 0
  | _ => 0

abbrev hbmTy0_0 (i : Nat) : BufTy := match i % 128 with
  | 0 => ⟨S50000, .i32⟩
  | 1 => ⟨S2x800000, .i32⟩
  | 2 => ⟨S50000x256, .f32⟩
  | 3 => ⟨S256x256, .f32⟩
  | 4 => ⟨S256, .f32⟩
  | 5 => ⟨S256x128, .f32⟩
  | 6 => ⟨S128, .f32⟩
  | 7 => ⟨S1x800000, .i32⟩
  | 8 => ⟨S800000, .i32⟩
  | 9 => ⟨S1x800000, .i32⟩
  | 10 => ⟨S800000, .i32⟩
  | 11 => ⟨S_, .i32⟩
  | 12 => ⟨S50000, .i32⟩
  | 13 => ⟨S50000, .i1⟩
  | 14 => ⟨S_, .i32⟩
  | 15 => ⟨S50000, .i32⟩
  | 16 => ⟨S50000, .i32⟩
  | 17 => ⟨S50000, .i32⟩
  | 18 => ⟨S50000x1, .i32⟩
  | 19 => ⟨S50000x256, .f32⟩
  | 20 => ⟨S50000x256, .f32⟩
  | 21 => ⟨S_, .f32⟩
  | 22 => ⟨S800000, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x256, .f32⟩
  | 59 => ⟨S800000x1, .f32⟩
  | 60 => ⟨S800000x256, .f32⟩
  | 61 => ⟨S800000x256, .f32⟩
  | 62 => ⟨S_, .f32⟩
  | 63 => ⟨S50000x256, .f32⟩
  | 64 => ⟨S800000x1, .i32⟩
  | 65 => ⟨S50000x256, .f32⟩
  | 66 => ⟨S50000, .f32⟩
  | 67 => ⟨S50000x1, .f32⟩
  | 68 => ⟨S50000x256, .f32⟩
  | 69 => ⟨S50000x256, .f32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S50000x128, .f32⟩
  | 78 => ⟨S_, .f32⟩
  | 79 => ⟨S800000, .f32⟩
  | 80 => ⟨S_, .f32⟩
  | 81 => ⟨S50000, .f32⟩
  | 82 => ⟨S800000x1, .i32⟩
  | 83 => ⟨S50000, .f32⟩
  | 84 => ⟨S_, .f32⟩
  | 85 => ⟨S50000, .f32⟩
  | 86 => ⟨S50000, .f32⟩
  | 87 => ⟨S50000, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000, .f32⟩
  | 106 => ⟨S800000, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S800000x1, .f32⟩
  | 117 => ⟨S800000x128, .f32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S50000, .f32⟩
  | 124 => ⟨S50000x1, .f32⟩
  | 125 => ⟨S50000x128, .f32⟩
  | 126 => ⟨S50000x128, .f32⟩
  | 127 => ⟨S50000x128, .f32⟩
  | _ => ⟨S50000, .i32⟩

abbrev hbmTy0_1 (i : Nat) : BufTy := match i % 128 with
  | 0 => ⟨S1x128, .f32⟩
  | 1 => ⟨S50000x128, .f32⟩
  | 2 => ⟨S50000x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call0_cst : Ref sig .tc := ⟨.hbm, 74, rfl⟩
abbrev main_call0_v0 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_c_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_15 : Ref sig .tc := ⟨.hbm, 97, rfl⟩
abbrev main_v71 : Ref sig .tc := ⟨.hbm, 98, rfl⟩
abbrev main_v72 : Ref sig .tc := ⟨.hbm, 99, rfl⟩
abbrev main_c_16 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_17 : Ref sig .tc := ⟨.hbm, 107, rfl⟩
abbrev main_v79 : Ref sig .tc := ⟨.hbm, 108, rfl⟩
abbrev main_v80 : Ref sig .tc := ⟨.hbm, 109, rfl⟩
abbrev main_c_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_19 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x256_S50000x1_S50000x256_1_0_n_n_0_1_1256_wf : GatherDims.WF S50000x256 S50000x1 S50000x256 [1] [0] [] [0] [] 1 ![1, 256]
  dot_S50000x256_S256x256_S50000x256_1_0_0_1_n_n_wf : DotDims.WF S50000x256 S256x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def gather_S50000x256_S50000x1_S50000x256_1_0_n_n_0_1_1256 : GatherDims S50000x256 S50000x1 S50000x256 where
  offsetDims := [1]
  collapsedSliceDims := [0]
  operandBatchingDims := []
  startIndicesBatchingDims := []
  startIndexMap := [0]
  indexVectorDim := 1
  sliceSizes := ![1, 256]
  wf := gather_S50000x256_S50000x1_S50000x256_1_0_n_n_0_1_1256_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The kernel's run, keeping its result.

  The program is four kernel launches with host arithmetic before and between them. Its run is followed boundary by
  boundary: the buffers' contents when the program starts, after the first stretch of host arithmetic, after the first
  launch has written its blocks back, and so on to the return. The last of these, the contents after the fourth
  launch, is a function `W7` of the starting memory. The frame claim reads only the seven argument arrays out of that
  final state; here the same run is read at one more buffer, the program's result: it ends holding `W7` at the
  result's buffer. What that function is, as arithmetic on the arguments, is the business of the modules after this one.
-/
import proofs.«139344_j67336497266833_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents `W7`, and the seven arguments end as they started. -/
theorem run_result : θ_run defs (onTc (τ := τ) (main (F := F))) ⟨m, fun _ => 0, ρ⟩ (fun r => ∀ c : Dev nD,
      r.2.mem ((c.tc : Thread nD τ).loc main_v65) = W7 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v65 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.RunValue

end
-- ==== Proof.Terms.lean ====
/-
  The graph arithmetic around the launches, as functions of whole arrays.

  A two-layer graph convolution over 50000 nodes and 800000 directed edges (source row and target row of the edge
  list). Each node's degree is 1 (its own loop) plus the number of edges that point at it; d = degree^(-1/2). An edge
  from u to v carries weight d(u) · d(v), a node's own loop weight d(v)². A layer takes node rows h and returns, for
  each node v, the sum over edges u → v of weight · h(u), to which the launches add the node's own row times its loop
  weight and a bias. Node numbers may be given from the end (negative): such a number has 50000 added before rows are
  looked up; the summing by target uses the target numbers as given.

  These functions are spelled operation for operation as the host arithmetic between the launches, so that what a
  buffer holds after a stretch of it is one of them by unfolding.
-/
import proofs.«139344_j67336497266833_1_alg».proof.Proof.Gen.KernelIdeal
import Idealize.ShloMosaic.PureOps.Ideal

noncomputable section

namespace Cert.KernelIdeal.Terms

open Cert.KernelIdeal Cert.KernelIdeal.Facts₀ Cert.KernelIdeal.Facts Idealize.ShloMosaic

/-- Row 0 of the edge list: each edge's source node. -/
def sources (e : IVec S2x800000 32) : IVec S800000 32 :=
  shapeCast S800000 (extractStridedSlice S1x800000 ![0, 0] e slices_S2x800000_S1x800000_0_0) shapeCasts_S1x800000_S800000

/-- Row 1 of the edge list: each edge's target node. -/
def targets (e : IVec S2x800000 32) : IVec S800000 32 :=
  shapeCast S800000 (extractStridedSlice S1x800000 ![1, 0] e slices_S2x800000_S1x800000_1_0) shapeCasts_S1x800000_S800000

/-- A node number counted from the end has 50000 added. -/
def fromEnd (x : IVec S800000 32) : IVec S800000 32 :=
  select (cmpi .slt x (broadcastInDim S800000 ![] bcast_S_S800000 (constantI S_ 32 0#32)))
    (addi x (broadcastInDim S800000 ![] bcast_S_S800000 (constantI S_ 32 50000#32))) x

/-- The node features: row `idx(v)` of the embedding table for node v (numbers from the end allowed). -/
def features (idx : IVec S50000 32) (table : FVec Ideal S50000x256 .f32) : FVec Ideal S50000x256 .f32 :=
  Host.gather gather_S50000x256_S50000x1_S50000x256_1_0_n_n_0_1_1256 table
    (broadcastInDim S50000x1 ![0] bcast_S50000_S50000x1_0
      (select (cmpi .slt idx (broadcastInDim S50000 ![] bcast_S_S50000 (constantI S_ 32 0#32)))
        (addi idx (broadcastInDim S50000 ![] bcast_S_S50000 (constantI S_ 32 50000#32))) idx))

/-- d(v) = (1 + number of edges into v)^(-1/2). -/
def invSqrtDegree (tgt : IVec S800000 32) : FVec Ideal S50000 .f32 :=
  Host.rsqrt (addf
    (Host.scatterAdd scatter_S50000_S800000x1_S800000_n_0_0_1
      (broadcastInDim S50000 ![] bcast_S_S50000 (constant S_ .f32 0x00000000#32))
      (broadcastInDim S800000x1 ![0] bcast_S800000_S800000x1_0 tgt)
      (broadcastInDim S800000 ![] bcast_S_S800000 (constant S_ .f32 0x3F800000#32)))
    (broadcastInDim S50000 ![] bcast_S_S50000 (constant S_ .f32 0x3F800000#32)))

/-- An edge's weight d(source) · d(target). -/
def edgeWeight (src tgt : IVec S800000 32) : FVec Ideal S800000 .f32 :=
  mulf
    (Host.gather gather_S50000_S800000x1_S800000_n_0_n_n_0_1_1 (invSqrtDegree tgt)
      (broadcastInDim S800000x1 ![0] bcast_S800000_S800000x1_0 (fromEnd src)))
    (Host.gather gather_S50000_S800000x1_S800000_n_0_n_n_0_1_1 (invSqrtDegree tgt)
      (broadcastInDim S800000x1 ![0] bcast_S800000_S800000x1_0 (fromEnd tgt)))

/-- A node's own-loop weight d(v)². -/
def loopWeight (tgt : IVec S800000 32) : FVec Ideal S50000 .f32 :=
  mulf (invSqrtDegree tgt) (invSqrtDegree tgt)

/-- The loop weights as a 50000 × 1 column. -/
def loopColumn (tgt : IVec S800000 32) : FVec Ideal S50000x1 .f32 :=
  shapeCast S50000x1 (loopWeight tgt) shapeCasts_S50000_S50000x1

/-- First layer (256 columns): for each node, the weighted sum of its in-neighbours' rows of `h`. -/
def neighbourSum256 (h : FVec Ideal S50000x256 .f32) (src tgt : IVec S800000 32) (w : FVec Ideal S800000 .f32) :
    FVec Ideal S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 tgt)
    (mulf
      (Host.gather gather_S50000x256_S800000x1_S800000x256_1_0_n_n_0_1_1256 h
        (broadcastInDim S800000x1 ![0] bcast_S800000_S800000x1_0 (fromEnd src)))
      (broadcastInDim S800000x256 ![0, 1] bcast_S800000x1_S800000x256_0_1
        (broadcastInDim S800000x1 ![0] bcast_S800000_S800000x1_0 w)))

/-- Second layer (128 columns): the same sum. -/
def neighbourSum128 (h : FVec Ideal S50000x128 .f32) (src tgt : IVec S800000 32) (w : FVec Ideal S800000 .f32) :
    FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 tgt)
    (mulf
      (Host.gather gather_S50000x128_S800000x1_S800000x128_1_0_n_n_0_1_1128 h
        (broadcastInDim S800000x1 ![0] bcast_S800000_S800000x1_0 (fromEnd src)))
      (broadcastInDim S800000x128 ![0, 1] bcast_S800000x1_S800000x128_0_1
        (broadcastInDim S800000x1 ![0] bcast_S800000_S800000x1_0 w)))

end Cert.KernelIdeal.Terms

end
-- ==== Proof.AtFirstLaunch.lean ====
/-
  What the buffers hold when the first launch starts.

  Before the first launch the host arithmetic has split the edge list into sources and targets, looked the node
  features up in the embedding table, and computed the degrees' inverse square roots, the edge weights and the loop
  weights. Each of those buffers then holds the corresponding function of the argument arrays, and the argument arrays
  themselves are untouched.
-/
import proofs.«139344_j67336497266833_1_alg».proof.Proof.Gen.KernelIdeal.Frame
import proofs.«139344_j67336497266833_1_alg».proof.Proof.Terms
import Idealize.ShloMosaic.Lib.StableHlo.Run

set_option maxRecDepth 16384

noncomputable section

namespace Cert.KernelIdeal.AtFirstLaunch

open Cert.KernelIdeal Cert.KernelIdeal.Gen Cert.KernelIdeal.Terms Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The edge sources. -/
theorem src_eq : W1 m ρ c (Proc.devRef .tc main_v1) = sources (m ((c : Thread nD τ).loc main_arg1) : IVec S2x800000 32) := by
  show StableHlo.after hostOps0 (W0 m ρ c) (Proc.devRef .tc main_v1) = _
  after_results_simp <;> rfl

/-- The edge targets. -/
theorem tgt_eq : W1 m ρ c (Proc.devRef .tc main_v3) = targets (m ((c : Thread nD τ).loc main_arg1) : IVec S2x800000 32) := by
  show StableHlo.after hostOps0 (W0 m ρ c) (Proc.devRef .tc main_v3) = _
  after_results_simp <;> rfl

/-- The node features. -/
theorem features_eq : W1 m ρ c (Proc.devRef .tc main_v10) = features (m ((c : Thread nD τ).loc main_arg0) : IVec S50000 32) (m ((c : Thread nD τ).loc main_arg2) : FVec Ideal S50000x256 .f32) := by
  show StableHlo.after hostOps0 (W0 m ρ c) (Proc.devRef .tc main_v10) = _
  after_results_simp <;> rfl

/-- The edge weights. -/
theorem edgeWeight_eq : W1 m ρ c (Proc.devRef .tc main_v32) = edgeWeight (sources (m ((c : Thread nD τ).loc main_arg1) : IVec S2x800000 32)) (targets (m ((c : Thread nD τ).loc main_arg1) : IVec S2x800000 32)) := by
  show StableHlo.after hostOps0 (W0 m ρ c) (Proc.devRef .tc main_v32) = _
  after_results_simp <;> rfl

/-- The loop weights. -/
theorem loopWeight_eq : W1 m ρ c (Proc.devRef .tc main_v33) = loopWeight (targets (m ((c : Thread nD τ).loc main_arg1) : IVec S2x800000 32)) := by
  show StableHlo.after hostOps0 (W0 m ρ c) (Proc.devRef .tc main_v33) = _
  after_results_simp <;> rfl

/-- Argument 3 is untouched. -/
theorem arg3_eq : W1 m ρ c (Proc.devRef .tc main_arg3) = (m ((c : Thread nD τ).loc main_arg3) : FVec Ideal S256x256 .f32) := by
  show StableHlo.after hostOps0 (W0 m ρ c) (Proc.devRef .tc main_arg3) = _
  after_results_simp <;> rfl

/-- Argument 4 is untouched. -/
theorem arg4_eq : W1 m ρ c (Proc.devRef .tc main_arg4) = (m ((c : Thread nD τ).loc main_arg4) : FVec Ideal S256 .f32) := by
  show StableHlo.after hostOps0 (W0 m ρ c) (Proc.devRef .tc main_arg4) = _
  after_results_simp <;> rfl

/-- Argument 5 is untouched. -/
theorem arg5_eq : W1 m ρ c (Proc.devRef .tc main_arg5) = (m ((c : Thread nD τ).loc main_arg5) : FVec Ideal S256x128 .f32) := by
  show StableHlo.after hostOps0 (W0 m ρ c) (Proc.devRef .tc main_arg5) = _
  after_results_simp <;> rfl

/-- Argument 6 is untouched. -/
theorem arg6_eq : W1 m ρ c (Proc.devRef .tc main_arg6) = (m ((c : Thread nD τ).loc main_arg6) : FVec Ideal S128 .f32) := by
  show StableHlo.after hostOps0 (W0 m ρ c) (Proc.devRef .tc main_arg6) = _
  after_results_simp <;> rfl

end Cert.KernelIdeal.AtFirstLaunch

end
-- ==== Proof.ClosingArray1.lean ====
/-
  The first layer's closing step, from blocks to the whole array.

  After the neighbours' messages have been summed into `a`, the layer adds each node's own row `h` scaled by that node's
  self-weight `s` (one number per node, held as a 50000 × 1 column) and the bias `b` (one number per output column), and
  replaces negative entries by zero: entry (p, j) is max((a(p, j) + h(p, j) · s(p)) + b(j), 0). The launch does this 5000 rows at a
  time over ten grid points whose row ranges tile the 50000 rows; each entry depends only on the same entry of `a` and
  `h`, its row's `s` and its column's `b`, so the ten blocks together are the one whole-array expression below, written
  with broadcasts the way a whole-array program writes it. Only the order (a + h·s) + b matters to the value, and it is
  the same everywhere; no law of arithmetic is used. The launch's entry contents are a parameter: the run supplies them.
-/
import proofs.«139344_j67336497266833_1_alg».proof.Proof.Gen.KernelIdeal.Frame
import proofs.«139344_j67336497266833_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.ClosingArray1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl
theorem origin1 : (![0] : Fin 1 → Nat) = fun _ => 0 := funext fun a => by fin_cases a; rfl

/-- The step as one expression of whole arrays: messages `a`, rows `h`, self-weights `s`, bias `b`. -/
def closing (a h : FVec Ideal Cert.ReferenceIdeal.S50000x256 .f32) (s : FVec Ideal Cert.ReferenceIdeal.S50000x1 .f32) (b : FVec Ideal Cert.ReferenceIdeal.S256 .f32) :
    FVec Ideal Cert.ReferenceIdeal.S50000x256 .f32 :=
  maximumf (addf (addf a (mulf h (broadcastInDim Cert.ReferenceIdeal.S50000x256 ![0, 1] Cert.ReferenceIdeal.Facts₀.bcast_S50000x1_S50000x256_0_1 s)))
      (broadcastInDim Cert.ReferenceIdeal.S50000x256 ![0, 1] Cert.ReferenceIdeal.Facts₀.bcast_S1x256_S50000x256_0_1 (broadcastInDim Cert.ReferenceIdeal.S1x256 ![1] Cert.ReferenceIdeal.Facts₀.bcast_S256_S1x256_1 b)))
      (broadcastInDim Cert.ReferenceIdeal.S50000x256 ![] Cert.ReferenceIdeal.Facts₀.bcast_S_S50000x256 (constant (F := Ideal) Cert.ReferenceIdeal.S_ .f32 0x00000000#32))

/-- That expression of the four arrays the launch reads, as it finds them. -/
def whole (c : Dev nD) : FVec Ideal S50000x256 .f32 :=
  closing (V c main_v47 : FVec Ideal Cert.ReferenceIdeal.S50000x256 .f32) (V c main_v34 : FVec Ideal Cert.ReferenceIdeal.S50000x256 .f32)
    (V c main_v48 : FVec Ideal Cert.ReferenceIdeal.S50000x1 .f32) (V c main_arg4 : FVec Ideal Cert.ReferenceIdeal.S256 .f32)

/-- One entry of a block's result is the matching entry of the whole-array expression, once the block's entries of
    `a` and `h` are the whole arrays' at the block's offset, its self-weight is that row's, the bias vectors agree,
    and the columns agree. -/
theorem entry_eq (x0 x1 : Vec Ideal S5000x256 .f32) (x2 : Vec Ideal S5000x1 .f32) (x3 : Vec Ideal S256 .f32)
    (a h : FVec Ideal Cert.ReferenceIdeal.S50000x256 .f32) (s : FVec Ideal Cert.ReferenceIdeal.S50000x1 .f32) (b : FVec Ideal Cert.ReferenceIdeal.S256 .f32)
    (y : S5000x256.Idx) (i : Cert.ReferenceIdeal.S50000x256.Idx)
    (h0 : x0 y = a i) (h1 : x1 y = h i)
    (h2 : x2 (ix2 (y 0 : Fin 5000) (0 : Fin 1)) = s (ix2 (i 0 : Fin 50000) (0 : Fin 1)))
    (h3 : x3 = b) (hcol : (i 1).val = (y 1).val) :
    k1_pay1 (F := Ideal) x0 x1 x2 x3 y = closing a h s b i := by
  obtain ⟨r, j, rfl⟩ : ∃ (r : Fin 5000) (j : Fin 256), y = ix2 r j := ⟨y 0, y 1, eq_ix2 y⟩
  obtain ⟨p, j', rfl⟩ : ∃ (p : Fin 50000) (j' : Fin 256), i = ix2 p j' := ⟨i 0, i 1, eq_ix2 i⟩
  have hj : j = j' := Fin.ext hcol.symm
  subst hj h3
  -- the block's side: the self-weight column spread along the row, the bias row spread down the rows
  have k2 : broadcastTo S5000x256 x2 broadcasts_S5000x1_S5000x256 (ix2 r j) = x2 (ix2 r (0 : Fin 1)) :=
    broadcastTo_apply x2 broadcasts_S5000x1_S5000x256 (ix2 r j) (ix2 r (0 : Fin 1)) (fun ax => by
      match ax with
      | ⟨0, _⟩ => rfl
      | ⟨1, _⟩ => rfl)
  have k3 : broadcastTo S5000x256 (shapeCast S1x256 x3 shapeCasts_S256_S1x256) broadcasts_S1x256_S5000x256 (ix2 r j) = x3 (ix1 j) :=
    (broadcastTo_1b_ab_apply _ broadcasts_S1x256_S5000x256 r j).trans
      (shapeCast_apply x3 shapeCasts_S256_S1x256 (ix2 (0 : Fin 1) j) (ix1 j) (by
        rw [Shape.rowMajor_val_two, Shape.rowMajor_val_one]; show j.val = 0 * 256 + j.val; omega))
  -- the whole arrays' side: the same two spreads, written as broadcasts in dimensions
  have w2 : broadcastInDim Cert.ReferenceIdeal.S50000x256 ![0, 1] Cert.ReferenceIdeal.Facts₀.bcast_S50000x1_S50000x256_0_1 s (ix2 p j) = s (ix2 p (0 : Fin 1)) :=
    broadcastInDim_apply ![0, 1] Cert.ReferenceIdeal.Facts₀.bcast_S50000x1_S50000x256_0_1 s (ix2 p j) (ix2 p (0 : Fin 1)) (fun ax => by
      match ax with
      | ⟨0, _⟩ => rfl
      | ⟨1, _⟩ => rfl)
  have w3 : broadcastInDim Cert.ReferenceIdeal.S50000x256 ![0, 1] Cert.ReferenceIdeal.Facts₀.bcast_S1x256_S50000x256_0_1
      (broadcastInDim Cert.ReferenceIdeal.S1x256 ![1] Cert.ReferenceIdeal.Facts₀.bcast_S256_S1x256_1 x3) (ix2 p j) = x3 (ix1 j) :=
    (broadcastInDim_oneRow_apply Cert.ReferenceIdeal.Facts₀.bcast_S1x256_S50000x256_0_1 _ p j).trans
      (broadcastInDim_apply ![1] Cert.ReferenceIdeal.Facts₀.bcast_S256_S1x256_1 x3 (ix2 (0 : Fin 1) j) (ix1 j) (fun ax => by
        match ax with
        | ⟨0, _⟩ => rfl))
  unfold k1_pay1 closing
  simp only [shapeCast_self, maximumf_apply, addf_apply, mulf_apply, broadcast_apply]
  rw [k2, k3, w2, w3, h0, h1, h2]
  rfl

/-- The printed index maps over the grid: the three row-blocked inputs and the output sit at row offset the point's
    number and column offset 0; the bias is always block 0. -/
theorem offsets : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What point `t` writes back is block `t` of the whole-array expression. -/
theorem flushed_eq (c : Dev nD) (t : Fin cfg1.N) :
    (dat1 V c).flushed 4 t = ((cfg1.win 4).blk t).view.read (Elt Ideal) (whole V c) := by
  show (cfg1.win 4).cut (grid1.coords t) ((dat1 V c).after 4 t) = _
  rw [after1_4]
  unfold out1_4
  rw [View.canon_unit_zero origin]
  simp only [View.ld_unit_zero (S := S5000x256) origin, View.ld_unit_zero (S := S5000x1) origin, View.ld_unit_zero (S := S256) origin1]
  obtain ⟨e00, e01, e10, e11, e20, e21, e30, e40, e41⟩ := offsets t
  funext y
  show k1_pay1 (F := Ideal) (iblk1 V c 0 t) (iblk1 V c 1 t) (iblk1 V c 2 t) (iblk1 V c 3 t) y = whole V c (((cfg1.win 4).blk t).view.emb y)
  unfold whole
  refine entry_eq (iblk1 V c 0 t) (iblk1 V c 1 t) (iblk1 V c 2 t) (iblk1 V c 3 t)
    (V c main_v47) (V c main_v34) (V c main_v48) (V c main_arg4) y (((cfg1.win 4).blk t).view.emb y) ?_ ?_ ?_ ?_ ?_
  · show V c main_v47 (((cfg1.win 0).blk t).view.emb y) = V c main_v47 (((cfg1.win 4).blk t).view.emb y)
    refine congrArg (V c main_v47) (funext fun ax => Fin.ext ?_)
    match ax with
    | ⟨0, _⟩ => show win1_0.index t (0 : Fin 2) * 5000 + 1 * (y 0).val = win1_4.index t (0 : Fin 2) * 5000 + 1 * (y 0).val; omega
    | ⟨1, _⟩ => show win1_0.index t (1 : Fin 2) * 256 + 1 * (y 1).val = win1_4.index t (1 : Fin 2) * 256 + 1 * (y 1).val; omega
  · show V c main_v34 (((cfg1.win 1).blk t).view.emb y) = V c main_v34 (((cfg1.win 4).blk t).view.emb y)
    refine congrArg (V c main_v34) (funext fun ax => Fin.ext ?_)
    match ax with
    | ⟨0, _⟩ => show win1_1.index t (0 : Fin 2) * 5000 + 1 * (y 0).val = win1_4.index t (0 : Fin 2) * 5000 + 1 * (y 0).val; omega
    | ⟨1, _⟩ => show win1_1.index t (1 : Fin 2) * 256 + 1 * (y 1).val = win1_4.index t (1 : Fin 2) * 256 + 1 * (y 1).val; omega
  · show V c main_v48 (((cfg1.win 2).blk t).view.emb (ix2 (y 0 : Fin 5000) (0 : Fin 1))) = V c main_v48 (ix2 ((((cfg1.win 4).blk t).view.emb y) 0 : Fin 50000) (0 : Fin 1))
    refine congrArg (V c main_v48) (funext fun ax => Fin.ext ?_)
    match ax with
    | ⟨0, _⟩ => show win1_2.index t (0 : Fin 2) * 5000 + 1 * (y 0).val = win1_4.index t (0 : Fin 2) * 5000 + 1 * (y 0).val; omega
    | ⟨1, _⟩ => show win1_2.index t (1 : Fin 2) * 1 + 1 * 0 = 0; omega
  · funext z
    show V c main_arg4 (((cfg1.win 3).blk t).view.emb z) = V c main_arg4 z
    refine congrArg (V c main_arg4) (funext fun ax => Fin.ext ?_)
    match ax with
    | ⟨0, _⟩ => show win1_3.index t (0 : Fin 1) * 256 + 1 * (z 0).val = (z 0).val; omega
  · show win1_4.index t (1 : Fin 2) * 256 + 1 * (y 1).val = (y 1).val; omega

/-- An index of the output array is in point `t`'s block iff each coordinate is in the block's range on its axis. -/
theorem mem_blk (t : Fin cfg1.N) (i : S50000x256.Idx) :
    i ∈ ((cfg1.win 4).blk t).view.set ↔ ∀ a : Fin 2, win1_4.index t a * S5000x256.size a ≤ (i a).val ∧ (i a).val < win1_4.index t a * S5000x256.size a + S5000x256.size a := by
  show i ∈ ((View.whole main_v49).slice (win1_4.rect t)).set ↔ _
  rw [View.set_slice_whole, Rect.mem_set_unit]
  exact Iff.rfl

/-- Every entry of the output lies in some point's block: row `p` in the block of point `p / 5000`. -/
theorem covered (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  refine ⟨⟨(i 0).val / 5000, by rw [show cfg1.N = 10 from N_1]; omega⟩, flush1_4 _, ?_⟩
  rw [mem_blk]
  obtain ⟨e00, e01, e10, e11, e20, e21, e30, e40, e41⟩ := offsets ⟨(i 0).val / 5000, by rw [show cfg1.N = 10 from N_1]; omega⟩
  intro a
  match a with
  | ⟨0, _⟩ =>
    show win1_4.index _ (0 : Fin 2) * 5000 ≤ (i 0).val ∧ (i 0).val < win1_4.index _ (0 : Fin 2) * 5000 + 5000
    rw [e40]; show (i 0).val / 5000 * 5000 ≤ (i 0).val ∧ (i 0).val < (i 0).val / 5000 * 5000 + 5000; omega
  | ⟨1, _⟩ =>
    show win1_4.index _ (1 : Fin 2) * 256 ≤ (i 1).val ∧ (i 1).val < win1_4.index _ (1 : Fin 2) * 256 + 256
    rw [e41]; omega

/-- After the launch the output array is the whole-array expression of the four arrays the launch found. -/
theorem array_eq (c : Dev nD) : (dat1 V c).arrAt 4 cfg1.N = whole V c :=
  (dat1 V c).arrAt_eq_of_cover 4 (whole V c) (fun t _ => flushed_eq V c t) (covered)

end Cert.KernelIdeal.ClosingArray1

end
-- ==== Proof.ClosingArray2.lean ====
/-
  The second layer's closing step, from blocks to the whole array.

  After the neighbours' messages have been summed into `a`, the layer adds each node's own row `h` scaled by that node's
  self-weight `s` (one number per node, held as a 50000 × 1 column) and the bias `b` (one number per output column): entry (p, j) is (a(p, j) + h(p, j) · s(p)) + b(j). The launch does this 5000 rows at a
  time over ten grid points whose row ranges tile the 50000 rows; each entry depends only on the same entry of `a` and
  `h`, its row's `s` and its column's `b`, so the ten blocks together are the one whole-array expression below, written
  with broadcasts the way a whole-array program writes it. Only the order (a + h·s) + b matters to the value, and it is
  the same everywhere; no law of arithmetic is used. The launch's entry contents are a parameter: the run supplies them.
-/
import proofs.«139344_j67336497266833_1_alg».proof.Proof.Gen.KernelIdeal.Frame
import proofs.«139344_j67336497266833_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.ClosingArray2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl
theorem origin1 : (![0] : Fin 1 → Nat) = fun _ => 0 := funext fun a => by fin_cases a; rfl

/-- The step as one expression of whole arrays: messages `a`, rows `h`, self-weights `s`, bias `b`. -/
def closing (a h : FVec Ideal Cert.ReferenceIdeal.S50000x128 .f32) (s : FVec Ideal Cert.ReferenceIdeal.S50000x1 .f32) (b : FVec Ideal Cert.ReferenceIdeal.S128 .f32) :
    FVec Ideal Cert.ReferenceIdeal.S50000x128 .f32 :=
  addf (addf a (mulf h (broadcastInDim Cert.ReferenceIdeal.S50000x128 ![0, 1] Cert.ReferenceIdeal.Facts₀.bcast_S50000x1_S50000x128_0_1 s)))
      (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b))

/-- That expression of the four arrays the launch reads, as it finds them. -/
def whole (c : Dev nD) : FVec Ideal S50000x128 .f32 :=
  closing (V c main_v63 : FVec Ideal Cert.ReferenceIdeal.S50000x128 .f32) (V c main_v50 : FVec Ideal Cert.ReferenceIdeal.S50000x128 .f32)
    (V c main_v64 : FVec Ideal Cert.ReferenceIdeal.S50000x1 .f32) (V c main_arg6 : FVec Ideal Cert.ReferenceIdeal.S128 .f32)

/-- One entry of a block's result is the matching entry of the whole-array expression, once the block's entries of
    `a` and `h` are the whole arrays' at the block's offset, its self-weight is that row's, the bias vectors agree,
    and the columns agree. -/
theorem entry_eq (x0 x1 : Vec Ideal S5000x128 .f32) (x2 : Vec Ideal S5000x1 .f32) (x3 : Vec Ideal S128 .f32)
    (a h : FVec Ideal Cert.ReferenceIdeal.S50000x128 .f32) (s : FVec Ideal Cert.ReferenceIdeal.S50000x1 .f32) (b : FVec Ideal Cert.ReferenceIdeal.S128 .f32)
    (y : S5000x128.Idx) (i : Cert.ReferenceIdeal.S50000x128.Idx)
    (h0 : x0 y = a i) (h1 : x1 y = h i)
    (h2 : x2 (ix2 (y 0 : Fin 5000) (0 : Fin 1)) = s (ix2 (i 0 : Fin 50000) (0 : Fin 1)))
    (h3 : x3 = b) (hcol : (i 1).val = (y 1).val) :
    k3_pay1 (F := Ideal) x0 x1 x2 x3 y = closing a h s b i := by
  obtain ⟨r, j, rfl⟩ : ∃ (r : Fin 5000) (j : Fin 128), y = ix2 r j := ⟨y 0, y 1, eq_ix2 y⟩
  obtain ⟨p, j', rfl⟩ : ∃ (p : Fin 50000) (j' : Fin 128), i = ix2 p j' := ⟨i 0, i 1, eq_ix2 i⟩
  have hj : j = j' := Fin.ext hcol.symm
  subst hj h3
  -- the block's side: the self-weight column spread along the row, the bias row spread down the rows
  have k2 : broadcastTo S5000x128 x2 broadcasts_S5000x1_S5000x128 (ix2 r j) = x2 (ix2 r (0 : Fin 1)) :=
    broadcastTo_apply x2 broadcasts_S5000x1_S5000x128 (ix2 r j) (ix2 r (0 : Fin 1)) (fun ax => by
      match ax with
      | ⟨0, _⟩ => rfl
      | ⟨1, _⟩ => rfl)
  have k3 : broadcastTo S5000x128 (shapeCast S1x128 x3 shapeCasts_S128_S1x128) broadcasts_S1x128_S5000x128 (ix2 r j) = x3 (ix1 j) :=
    (broadcastTo_1b_ab_apply _ broadcasts_S1x128_S5000x128 r j).trans
      (shapeCast_apply x3 shapeCasts_S128_S1x128 (ix2 (0 : Fin 1) j) (ix1 j) (by
        rw [Shape.rowMajor_val_two, Shape.rowMajor_val_one]; show j.val = 0 * 128 + j.val; omega))
  -- the whole arrays' side: the same two spreads, written as broadcasts in dimensions
  have w2 : broadcastInDim Cert.ReferenceIdeal.S50000x128 ![0, 1] Cert.ReferenceIdeal.Facts₀.bcast_S50000x1_S50000x128_0_1 s (ix2 p j) = s (ix2 p (0 : Fin 1)) :=
    broadcastInDim_apply ![0, 1] Cert.ReferenceIdeal.Facts₀.bcast_S50000x1_S50000x128_0_1 s (ix2 p j) (ix2 p (0 : Fin 1)) (fun ax => by
      match ax with
      | ⟨0, _⟩ => rfl
      | ⟨1, _⟩ => rfl)
  have w3 : broadcastInDim Cert.ReferenceIdeal.S50000x128 ![0, 1] Cert.ReferenceIdeal.Facts₀.bcast_S1x128_S50000x128_0_1
      (broadcastInDim Cert.ReferenceIdeal.S1x128 ![1] Cert.ReferenceIdeal.Facts₀.bcast_S128_S1x128_1 x3) (ix2 p j) = x3 (ix1 j) :=
    (broadcastInDim_oneRow_apply Cert.ReferenceIdeal.Facts₀.bcast_S1x128_S50000x128_0_1 _ p j).trans
      (broadcastInDim_apply ![1] Cert.ReferenceIdeal.Facts₀.bcast_S128_S1x128_1 x3 (ix2 (0 : Fin 1) j) (ix1 j) (fun ax => by
        match ax with
        | ⟨0, _⟩ => rfl))
  unfold k3_pay1 closing
  simp only [shapeCast_self, addf_apply, mulf_apply]
  rw [k2, k3, w2, w3, h0, h1, h2]

/-- The printed index maps over the grid: the three row-blocked inputs and the output sit at row offset the point's
    number and column offset 0; the bias is always block 0. -/
theorem offsets : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- What point `t` writes back is block `t` of the whole-array expression. -/
theorem flushed_eq (c : Dev nD) (t : Fin cfg3.N) :
    (dat3 V c).flushed 4 t = ((cfg3.win 4).blk t).view.read (Elt Ideal) (whole V c) := by
  show (cfg3.win 4).cut (grid3.coords t) ((dat3 V c).after 4 t) = _
  rw [after3_4]
  unfold out3_4
  rw [View.canon_unit_zero origin]
  simp only [View.ld_unit_zero (S := S5000x128) origin, View.ld_unit_zero (S := S5000x1) origin, View.ld_unit_zero (S := S128) origin1]
  obtain ⟨e00, e01, e10, e11, e20, e21, e30, e40, e41⟩ := offsets t
  funext y
  show k3_pay1 (F := Ideal) (iblk3 V c 0 t) (iblk3 V c 1 t) (iblk3 V c 2 t) (iblk3 V c 3 t) y = whole V c (((cfg3.win 4).blk t).view.emb y)
  unfold whole
  refine entry_eq (iblk3 V c 0 t) (iblk3 V c 1 t) (iblk3 V c 2 t) (iblk3 V c 3 t)
    (V c main_v63) (V c main_v50) (V c main_v64) (V c main_arg6) y (((cfg3.win 4).blk t).view.emb y) ?_ ?_ ?_ ?_ ?_
  · show V c main_v63 (((cfg3.win 0).blk t).view.emb y) = V c main_v63 (((cfg3.win 4).blk t).view.emb y)
    refine congrArg (V c main_v63) (funext fun ax => Fin.ext ?_)
    match ax with
    | ⟨0, _⟩ => show win3_0.index t (0 : Fin 2) * 5000 + 1 * (y 0).val = win3_4.index t (0 : Fin 2) * 5000 + 1 * (y 0).val; omega
    | ⟨1, _⟩ => show win3_0.index t (1 : Fin 2) * 128 + 1 * (y 1).val = win3_4.index t (1 : Fin 2) * 128 + 1 * (y 1).val; omega
  · show V c main_v50 (((cfg3.win 1).blk t).view.emb y) = V c main_v50 (((cfg3.win 4).blk t).view.emb y)
    refine congrArg (V c main_v50) (funext fun ax => Fin.ext ?_)
    match ax with
    | ⟨0, _⟩ => show win3_1.index t (0 : Fin 2) * 5000 + 1 * (y 0).val = win3_4.index t (0 : Fin 2) * 5000 + 1 * (y 0).val; omega
    | ⟨1, _⟩ => show win3_1.index t (1 : Fin 2) * 128 + 1 * (y 1).val = win3_4.index t (1 : Fin 2) * 128 + 1 * (y 1).val; omega
  · show V c main_v64 (((cfg3.win 2).blk t).view.emb (ix2 (y 0 : Fin 5000) (0 : Fin 1))) = V c main_v64 (ix2 ((((cfg3.win 4).blk t).view.emb y) 0 : Fin 50000) (0 : Fin 1))
    refine congrArg (V c main_v64) (funext fun ax => Fin.ext ?_)
    match ax with
    | ⟨0, _⟩ => show win3_2.index t (0 : Fin 2) * 5000 + 1 * (y 0).val = win3_4.index t (0 : Fin 2) * 5000 + 1 * (y 0).val; omega
    | ⟨1, _⟩ => show win3_2.index t (1 : Fin 2) * 1 + 1 * 0 = 0; omega
  · funext z
    show V c main_arg6 (((cfg3.win 3).blk t).view.emb z) = V c main_arg6 z
    refine congrArg (V c main_arg6) (funext fun ax => Fin.ext ?_)
    match ax with
    | ⟨0, _⟩ => show win3_3.index t (0 : Fin 1) * 128 + 1 * (z 0).val = (z 0).val; omega
  · show win3_4.index t (1 : Fin 2) * 128 + 1 * (y 1).val = (y 1).val; omega

/-- An index of the output array is in point `t`'s block iff each coordinate is in the block's range on its axis. -/
theorem mem_blk (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v65).slice (win3_4.rect t)).set ↔ _
  rw [View.set_slice_whole, Rect.mem_set_unit]
  exact Iff.rfl

/-- Every entry of the output lies in some point's block: row `p` in the block of point `p / 5000`. -/
theorem covered (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  refine ⟨⟨(i 0).val / 5000, by rw [show cfg3.N = 10 from N_3]; omega⟩, flush3_4 _, ?_⟩
  rw [mem_blk]
  obtain ⟨e00, e01, e10, e11, e20, e21, e30, e40, e41⟩ := offsets ⟨(i 0).val / 5000, by rw [show cfg3.N = 10 from N_3]; omega⟩
  intro a
  match a with
  | ⟨0, _⟩ =>
    show win3_4.index _ (0 : Fin 2) * 5000 ≤ (i 0).val ∧ (i 0).val < win3_4.index _ (0 : Fin 2) * 5000 + 5000
    rw [e40]; show (i 0).val / 5000 * 5000 ≤ (i 0).val ∧ (i 0).val < (i 0).val / 5000 * 5000 + 5000; omega
  | ⟨1, _⟩ =>
    show win3_4.index _ (1 : Fin 2) * 128 ≤ (i 1).val ∧ (i 1).val < win3_4.index _ (1 : Fin 2) * 128 + 128
    rw [e41]; omega

/-- After the launch the output array is the whole-array expression of the four arrays the launch found. -/
theorem array_eq (c : Dev nD) : (dat3 V c).arrAt 4 cfg3.N = whole V c :=
  (dat3 V c).arrAt_eq_of_cover 4 (whole V c) (fun t _ => flushed_eq V c t) (covered)

end Cert.KernelIdeal.ClosingArray2

end
-- ==== Proof.Layers.lean ====
/-
  The two layers and the network, as one function of the seven argument arrays.

  A layer multiplies the node rows by its weight matrix, sums each node's in-neighbours' product rows with the edge
  weights, and closes by adding the node's own product row times its loop weight and the bias (the first layer then
  replaces negative entries by zero). The network is the second layer applied to the first layer's output, both over
  the same edges and weights, starting from the node features looked up in the embedding table.
-/
import proofs.«139344_j67336497266833_1_alg».proof.Proof.Terms
import proofs.«139344_j67336497266833_1_alg».proof.Proof.ClosingArray1
import proofs.«139344_j67336497266833_1_alg».proof.Proof.ClosingArray2

noncomputable section

namespace Cert.KernelIdeal.Layers

open Cert.KernelIdeal Cert.KernelIdeal.Terms Idealize.ShloMosaic

/-- Node rows times the first layer's 256 × 256 weight matrix. -/
def product1 (x : FVec Ideal S50000x256 .f32) (w : FVec Ideal S256x256 .f32) : FVec Ideal S50000x256 .f32 :=
  Host.dotGeneral (F := Ideal) (φ₁ := .f32) (φ₂ := .f32) Cert.ReferenceIdeal.dot_S50000x256_S256x256_S50000x256_1_0_0_1_n_n none x w

/-- Node rows times the second layer's 256 × 128 weight matrix. -/
def product2 (x : FVec Ideal S50000x256 .f32) (w : FVec Ideal S256x128 .f32) : FVec Ideal S50000x128 .f32 :=
  Host.dotGeneral (F := Ideal) (φ₁ := .f32) (φ₂ := .f32) Cert.ReferenceIdeal.dot_S50000x256_S256x128_S50000x128_1_0_0_1_n_n none x w

/-- The first layer. -/
def layer1 (x : FVec Ideal S50000x256 .f32) (src tgt : IVec S800000 32) (w : FVec Ideal S256x256 .f32) (b : FVec Ideal S256 .f32) :
    FVec Ideal S50000x256 .f32 :=
  ClosingArray1.closing (neighbourSum256 (product1 x w) src tgt (edgeWeight src tgt)) (product1 x w) (loopColumn tgt) b

/-- The second layer. -/
def layer2 (x : FVec Ideal S50000x256 .f32) (src tgt : IVec S800000 32) (w : FVec Ideal S256x128 .f32) (b : FVec Ideal S128 .f32) :
    FVec Ideal S50000x128 .f32 :=
  ClosingArray2.closing (neighbourSum128 (product2 x w) src tgt (edgeWeight src tgt)) (product2 x w) (loopColumn tgt) b

/-- The network: features, first layer, second layer. -/
def network (idx : IVec S50000 32) (e : IVec S2x800000 32) (table : FVec Ideal S50000x256 .f32)
    (w1 : FVec Ideal S256x256 .f32) (b1 : FVec Ideal S256 .f32) (w2 : FVec Ideal S256x128 .f32) (b2 : FVec Ideal S128 .f32) :
    FVec Ideal S50000x128 .f32 :=
  layer2 (layer1 (features idx table) (sources e) (targets e) w1 b1) (sources e) (targets e) w2 b2

end Cert.KernelIdeal.Layers

end
-- ==== Proof.ProductEntry.lean ====
/-
  A matrix product, one entry at a time.

  Both programs multiply a 50000 × 256 matrix by a 256 × n matrix (n = 256 in the first layer, 128 in the second). One
  does it 5000 rows at a time, the other all at once. On the extended reals either way entry (row, column) is the sum
  over the 256 inner positions k of left(row, k) · right(k, column): a block's product into a zero accumulator is that
  sum because 0 + s = s, and the whole product is that sum by definition. Nothing here needs the entries to be finite:
  the same 256 products are added in both, and only their grouping into blocks of rows differs.
-/
import proofs.«139344_j67336497266833_1_alg».proof.Proof.Gen.KernelIdeal.Skeleton
import proofs.«139344_j67336497266833_1_alg».proof.Proof.Gen.ReferenceIdeal
import Idealize.ShloMosaic.PureOps.Ideal.Laws
import Idealize.ShloMosaic.Lib.ValueIdx
import Idealize.ShloMosaic.Lib.Pipeline.Value

noncomputable section

namespace Cert.Gcn.Product

open Idealize.ShloMosaic Idealize.ShloMosaic.ValueIdx

/-! ## The product with a 256 × 256 matrix -/

section Cols256

/-! Which entries of the two operands meet at output entry `i` and inner position `q`: the left operand's row is `i`'s
    row and its column the inner position; the right operand's row is the inner position and its column `i`'s. -/

theorem blk256_lhs0 (i : Cert.KernelIdeal.S5000x256.Idx) (q : Cert.KernelIdeal.dot_S5000x256_S256x256_S5000x256_1_0_0_1_n_n.contr.Idx) : (Cert.KernelIdeal.dot_S5000x256_S256x256_S5000x256_1_0_0_1_n_n.lhsIdx i q 0).val = (i 0).val := by
  unfold DotDims.lhsIdx
  rw [dif_neg (show ¬(0 : Fin Cert.KernelIdeal.S5000x256.rank) ∈ Cert.KernelIdeal.dot_S5000x256_S256x256_S5000x256_1_0_0_1_n_n.lhsBatch by decide),
    dif_pos (show (0 : Fin Cert.KernelIdeal.S5000x256.rank) ∈ Cert.KernelIdeal.dot_S5000x256_S256x256_S5000x256_1_0_0_1_n_n.lhsNonContracting by decide)]
  rfl
theorem blk256_lhs1 (i : Cert.KernelIdeal.S5000x256.Idx) (q : Cert.KernelIdeal.dot_S5000x256_S256x256_S5000x256_1_0_0_1_n_n.contr.Idx) : (Cert.KernelIdeal.dot_S5000x256_S256x256_S5000x256_1_0_0_1_n_n.lhsIdx i q 1).val = (q ⟨0, by decide⟩).val :=
  Cert.KernelIdeal.dot_S5000x256_S256x256_S5000x256_1_0_0_1_n_n.lhsIdx_val_of_single rfl i q
theorem blk256_rhs0 (i : Cert.KernelIdeal.S5000x256.Idx) (q : Cert.KernelIdeal.dot_S5000x256_S256x256_S5000x256_1_0_0_1_n_n.contr.Idx) : (Cert.KernelIdeal.dot_S5000x256_S256x256_S5000x256_1_0_0_1_n_n.rhsIdx i q 0).val = (q ⟨0, by decide⟩).val :=
  Cert.KernelIdeal.dot_S5000x256_S256x256_S5000x256_1_0_0_1_n_n.rhsIdx_val_of_single rfl i q
theorem blk256_rhs1 (i : Cert.KernelIdeal.S5000x256.Idx) (q : Cert.KernelIdeal.dot_S5000x256_S256x256_S5000x256_1_0_0_1_n_n.contr.Idx) : (Cert.KernelIdeal.dot_S5000x256_S256x256_S5000x256_1_0_0_1_n_n.rhsIdx i q 1).val = (i 1).val := by
  unfold DotDims.rhsIdx
  rw [dif_neg (show ¬(1 : Fin Cert.KernelIdeal.S256x256.rank) ∈ Cert.KernelIdeal.dot_S5000x256_S256x256_S5000x256_1_0_0_1_n_n.rhsBatch by decide),
    dif_pos (show (1 : Fin Cert.KernelIdeal.S256x256.rank) ∈ Cert.KernelIdeal.dot_S5000x256_S256x256_S5000x256_1_0_0_1_n_n.rhsNonContracting by decide)]
  rfl

theorem whole256_lhs0 (i : Cert.ReferenceIdeal.S50000x256.Idx) (q : Cert.ReferenceIdeal.dot_S50000x256_S256x256_S50000x256_1_0_0_1_n_n.contr.Idx) : (Cert.ReferenceIdeal.dot_S50000x256_S256x256_S50000x256_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x256_S50000x256_1_0_0_1_n_n.lhsBatch by decide),
    dif_pos (show (0 : Fin Cert.ReferenceIdeal.S50000x256.rank) ∈ Cert.ReferenceIdeal.dot_S50000x256_S256x256_S50000x256_1_0_0_1_n_n.lhsNonContracting by decide)]
  rfl
theorem whole256_lhs1 (i : Cert.ReferenceIdeal.S50000x256.Idx) (q : Cert.ReferenceIdeal.dot_S50000x256_S256x256_S50000x256_1_0_0_1_n_n.contr.Idx) : (Cert.ReferenceIdeal.dot_S50000x256_S256x256_S50000x256_1_0_0_1_n_n.lhsIdx i q 1).val = (q ⟨0, by decide⟩).val :=
  Cert.ReferenceIdeal.dot_S50000x256_S256x256_S50000x256_1_0_0_1_n_n.lhsIdx_val_of_single rfl i q
theorem whole256_rhs0 (i : Cert.ReferenceIdeal.S50000x256.Idx) (q : Cert.ReferenceIdeal.dot_S50000x256_S256x256_S50000x256_1_0_0_1_n_n.contr.Idx) : (Cert.ReferenceIdeal.dot_S50000x256_S256x256_S50000x256_1_0_0_1_n_n.rhsIdx i q 0).val = (q ⟨0, by decide⟩).val :=
  Cert.ReferenceIdeal.dot_S50000x256_S256x256_S50000x256_1_0_0_1_n_n.rhsIdx_val_of_single rfl i q
theorem whole256_rhs1 (i : Cert.ReferenceIdeal.S50000x256.Idx) (q : Cert.ReferenceIdeal.dot_S50000x256_S256x256_S50000x256_1_0_0_1_n_n.contr.Idx) : (Cert.ReferenceIdeal.dot_S50000x256_S256x256_S50000x256_1_0_0_1_n_n.rhsIdx i q 1).val = (i 1).val := by
  unfold DotDims.rhsIdx
  rw [dif_neg (show ¬(1 : Fin Cert.ReferenceIdeal.S256x256.rank) ∈ Cert.ReferenceIdeal.dot_S50000x256_S256x256_S50000x256_1_0_0_1_n_n.rhsBatch by decide),
    dif_pos (show (1 : Fin Cert.ReferenceIdeal.S256x256.rank) ∈ Cert.ReferenceIdeal.dot_S50000x256_S256x256_S50000x256_1_0_0_1_n_n.rhsNonContracting by decide)]
  rfl

/-- Row `r`, column `j` of a 5000-row block's product: the block's row `r` against the matrix's column `j`, summed
    over the 256 inner positions. The two operands pass through a change of float format first, which on the
    extended reals changes nothing, and the product is added to a zero. -/
theorem blockProduct256_apply (x0 : Vec Ideal Cert.KernelIdeal.S5000x256 .f32) (x1 : Vec Ideal Cert.KernelIdeal.S256x256 .f32)
    (r : Fin 5000) (j : Fin 256) :
    Cert.KernelIdeal.Gen.k0_pay1 (F := Ideal) x0 x1 (ix2 r j) = ∑ k : Fin 256, x0 (ix2 r k) * x1 (ix2 k j) := by
  unfold Cert.KernelIdeal.Gen.k0_pay1
  simp only [shapeCast_self, matmul]
  rw [Ideal.matmul_constant_zero_apply, ← Equiv.sum_comp (contrEquiv1 Cert.KernelIdeal.dot_S5000x256_S256x256_S5000x256_1_0_0_1_n_n 256 rfl rfl).symm]
  refine Finset.sum_congr rfl fun k _ => ?_
  have hk := contrEquiv1_symm_val Cert.KernelIdeal.dot_S5000x256_S256x256_S5000x256_1_0_0_1_n_n 256 rfl rfl k
  have el : Cert.KernelIdeal.dot_S5000x256_S256x256_S5000x256_1_0_0_1_n_n.lhsIdx (ix2 r j) ((contrEquiv1 Cert.KernelIdeal.dot_S5000x256_S256x256_S5000x256_1_0_0_1_n_n 256 rfl rfl).symm k) = ix2 r k :=
    funext fun a => Fin.ext (by
      match a with
      | ⟨0, _⟩ => exact blk256_lhs0 _ _
      | ⟨1, _⟩ => exact (blk256_lhs1 _ _).trans hk)
  have er : Cert.KernelIdeal.dot_S5000x256_S256x256_S5000x256_1_0_0_1_n_n.rhsIdx (ix2 r j) ((contrEquiv1 Cert.KernelIdeal.dot_S5000x256_S256x256_S5000x256_1_0_0_1_n_n 256 rfl rfl).symm k) = ix2 k j :=
    funext fun a => Fin.ext (by
      match a with
      | ⟨0, _⟩ => exact (blk256_rhs0 _ _).trans hk
      | ⟨1, _⟩ => exact blk256_rhs1 _ _)
  show x0 (Cert.KernelIdeal.dot_S5000x256_S256x256_S5000x256_1_0_0_1_n_n.lhsIdx (ix2 r j) _) * x1 (Cert.KernelIdeal.dot_S5000x256_S256x256_S5000x256_1_0_0_1_n_n.rhsIdx (ix2 r j) _) = _
  rw [el, er]

/-- Row `p`, column `j` of the whole 50000-row product, the same way. -/
theorem wholeProduct256_apply (X : FVec Ideal Cert.ReferenceIdeal.S50000x256 .f32) (W : FVec Ideal Cert.ReferenceIdeal.S256x256 .f32)
    (p : Fin 50000) (j : Fin 256) :
    Host.dotGeneral Cert.ReferenceIdeal.dot_S50000x256_S256x256_S50000x256_1_0_0_1_n_n none X W (ix2 p j) = ∑ k : Fin 256, X (ix2 p k) * W (ix2 k j) := by
  simp only [Host.dotGeneral]
  rw [Ideal.dotGeneral_apply, ← Equiv.sum_comp (contrEquiv1 Cert.ReferenceIdeal.dot_S50000x256_S256x256_S50000x256_1_0_0_1_n_n 256 rfl rfl).symm]
  refine Finset.sum_congr rfl fun k _ => ?_
  have hk := contrEquiv1_symm_val Cert.ReferenceIdeal.dot_S50000x256_S256x256_S50000x256_1_0_0_1_n_n 256 rfl rfl k
  have el : Cert.ReferenceIdeal.dot_S50000x256_S256x256_S50000x256_1_0_0_1_n_n.lhsIdx (ix2 p j) ((contrEquiv1 Cert.ReferenceIdeal.dot_S50000x256_S256x256_S50000x256_1_0_0_1_n_n 256 rfl rfl).symm k) = ix2 p k :=
    funext fun a => Fin.ext (by
      match a with
      | ⟨0, _⟩ => exact whole256_lhs0 _ _
      | ⟨1, _⟩ => exact (whole256_lhs1 _ _).trans hk)
  have er : Cert.ReferenceIdeal.dot_S50000x256_S256x256_S50000x256_1_0_0_1_n_n.rhsIdx (ix2 p j) ((contrEquiv1 Cert.ReferenceIdeal.dot_S50000x256_S256x256_S50000x256_1_0_0_1_n_n 256 rfl rfl).symm k) = ix2 k j :=
    funext fun a => Fin.ext (by
      match a with
      | ⟨0, _⟩ => exact (whole256_rhs0 _ _).trans hk
      | ⟨1, _⟩ => exact whole256_rhs1 _ _)
  rw [el, er]

end Cols256

/-! ## The product with a 256 × 128 matrix -/

section Cols128

/-! Which entries of the two operands meet at output entry `i` and inner position `q`: the left operand's row is `i`'s
    row and its column the inner position; the right operand's row is the inner position and its column `i`'s. -/

theorem blk128_lhs0 (i : Cert.KernelIdeal.S5000x128.Idx) (q : Cert.KernelIdeal.dot_S5000x256_S256x128_S5000x128_1_0_0_1_n_n.contr.Idx) : (Cert.KernelIdeal.dot_S5000x256_S256x128_S5000x128_1_0_0_1_n_n.lhsIdx i q 0).val = (i 0).val := by
  unfold DotDims.lhsIdx
  rw [dif_neg (show ¬(0 : Fin Cert.KernelIdeal.S5000x256.rank) ∈ Cert.KernelIdeal.dot_S5000x256_S256x128_S5000x128_1_0_0_1_n_n.lhsBatch by decide),
    dif_pos (show (0 : Fin Cert.KernelIdeal.S5000x256.rank) ∈ Cert.KernelIdeal.dot_S5000x256_S256x128_S5000x128_1_0_0_1_n_n.lhsNonContracting by decide)]
  rfl
theorem blk128_lhs1 (i : Cert.KernelIdeal.S5000x128.Idx) (q : Cert.KernelIdeal.dot_S5000x256_S256x128_S5000x128_1_0_0_1_n_n.contr.Idx) : (Cert.KernelIdeal.dot_S5000x256_S256x128_S5000x128_1_0_0_1_n_n.lhsIdx i q 1).val = (q ⟨0, by decide⟩).val :=
  Cert.KernelIdeal.dot_S5000x256_S256x128_S5000x128_1_0_0_1_n_n.lhsIdx_val_of_single rfl i q
theorem blk128_rhs0 (i : Cert.KernelIdeal.S5000x128.Idx) (q : Cert.KernelIdeal.dot_S5000x256_S256x128_S5000x128_1_0_0_1_n_n.contr.Idx) : (Cert.KernelIdeal.dot_S5000x256_S256x128_S5000x128_1_0_0_1_n_n.rhsIdx i q 0).val = (q ⟨0, by decide⟩).val :=
  Cert.KernelIdeal.dot_S5000x256_S256x128_S5000x128_1_0_0_1_n_n.rhsIdx_val_of_single rfl i q
theorem blk128_rhs1 (i : Cert.KernelIdeal.S5000x128.Idx) (q : Cert.KernelIdeal.dot_S5000x256_S256x128_S5000x128_1_0_0_1_n_n.contr.Idx) : (Cert.KernelIdeal.dot_S5000x256_S256x128_S5000x128_1_0_0_1_n_n.rhsIdx i q 1).val = (i 1).val := by
  unfold DotDims.rhsIdx
  rw [dif_neg (show ¬(1 : Fin Cert.KernelIdeal.S256x128.rank) ∈ Cert.KernelIdeal.dot_S5000x256_S256x128_S5000x128_1_0_0_1_n_n.rhsBatch by decide),
    dif_pos (show (1 : Fin Cert.KernelIdeal.S256x128.rank) ∈ Cert.KernelIdeal.dot_S5000x256_S256x128_S5000x128_1_0_0_1_n_n.rhsNonContracting by decide)]
  rfl

theorem whole128_lhs0 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x128_S50000x128_1_0_0_1_n_n.lhsBatch by decide),
    dif_pos (show (0 : Fin Cert.ReferenceIdeal.S50000x256.rank) ∈ Cert.ReferenceIdeal.dot_S50000x256_S256x128_S50000x128_1_0_0_1_n_n.lhsNonContracting by decide)]
  rfl
theorem whole128_lhs1 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
theorem whole128_rhs0 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
theorem whole128_rhs1 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.rhsIdx i q 1).val = (i 1).val := by
  unfold DotDims.rhsIdx
  rw [dif_neg (show ¬(1 : Fin Cert.ReferenceIdeal.S256x128.rank) ∈ Cert.ReferenceIdeal.dot_S50000x256_S256x128_S50000x128_1_0_0_1_n_n.rhsBatch by decide),
    dif_pos (show (1 : Fin Cert.ReferenceIdeal.S256x128.rank) ∈ Cert.ReferenceIdeal.dot_S50000x256_S256x128_S50000x128_1_0_0_1_n_n.rhsNonContracting by decide)]
  rfl

/-- Row `r`, column `j` of a 5000-row block's product: the block's row `r` against the matrix's column `j`, summed
    over the 256 inner positions. The two operands pass through a change of float format first, which on the
    extended reals changes nothing, and the product is added to a zero. -/
theorem blockProduct128_apply (x0 : Vec Ideal Cert.KernelIdeal.S5000x256 .f32) (x1 : Vec Ideal Cert.KernelIdeal.S256x128 .f32)
    (r : Fin 5000) (j : Fin 128) :
    Cert.KernelIdeal.Gen.k2_pay1 (F := Ideal) x0 x1 (ix2 r j) = ∑ k : Fin 256, x0 (ix2 r k) * x1 (ix2 k j) := by
  unfold Cert.KernelIdeal.Gen.k2_pay1
  simp only [shapeCast_self, matmul]
  rw [Ideal.matmul_constant_zero_apply, ← Equiv.sum_comp (contrEquiv1 Cert.KernelIdeal.dot_S5000x256_S256x128_S5000x128_1_0_0_1_n_n 256 rfl rfl).symm]
  refine Finset.sum_congr rfl fun k _ => ?_
  have hk := contrEquiv1_symm_val Cert.KernelIdeal.dot_S5000x256_S256x128_S5000x128_1_0_0_1_n_n 256 rfl rfl k
  have el : Cert.KernelIdeal.dot_S5000x256_S256x128_S5000x128_1_0_0_1_n_n.lhsIdx (ix2 r j) ((contrEquiv1 Cert.KernelIdeal.dot_S5000x256_S256x128_S5000x128_1_0_0_1_n_n 256 rfl rfl).symm k) = ix2 r k :=
    funext fun a => Fin.ext (by
      match a with
      | ⟨0, _⟩ => exact blk128_lhs0 _ _
      | ⟨1, _⟩ => exact (blk128_lhs1 _ _).trans hk)
  have er : Cert.KernelIdeal.dot_S5000x256_S256x128_S5000x128_1_0_0_1_n_n.rhsIdx (ix2 r j) ((contrEquiv1 Cert.KernelIdeal.dot_S5000x256_S256x128_S5000x128_1_0_0_1_n_n 256 rfl rfl).symm k) = ix2 k j :=
    funext fun a => Fin.ext (by
      match a with
      | ⟨0, _⟩ => exact (blk128_rhs0 _ _).trans hk
      | ⟨1, _⟩ => exact blk128_rhs1 _ _)
  show x0 (Cert.KernelIdeal.dot_S5000x256_S256x128_S5000x128_1_0_0_1_n_n.lhsIdx (ix2 r j) _) * x1 (Cert.KernelIdeal.dot_S5000x256_S256x128_S5000x128_1_0_0_1_n_n.rhsIdx (ix2 r j) _) = _
  rw [el, er]

/-- Row `p`, column `j` of the whole 50000-row product, the same way. -/
theorem wholeProduct128_apply (X : FVec Ideal Cert.ReferenceIdeal.S50000x256 .f32) (W : FVec Ideal Cert.ReferenceIdeal.S256x128 .f32)
    (p : Fin 50000) (j : Fin 128) :
    Host.dotGeneral Cert.ReferenceIdeal.dot_S50000x256_S256x128_S50000x128_1_0_0_1_n_n none X W (ix2 p j) = ∑ k : Fin 256, X (ix2 p k) * W (ix2 k j) := by
  simp only [Host.dotGeneral]
  rw [Ideal.dotGeneral_apply, ← Equiv.sum_comp (contrEquiv1 Cert.ReferenceIdeal.dot_S50000x256_S256x128_S50000x128_1_0_0_1_n_n 256 rfl rfl).symm]
  refine Finset.sum_congr rfl fun k _ => ?_
  have hk := contrEquiv1_symm_val Cert.ReferenceIdeal.dot_S50000x256_S256x128_S50000x128_1_0_0_1_n_n 256 rfl rfl k
  have el : Cert.ReferenceIdeal.dot_S50000x256_S256x128_S50000x128_1_0_0_1_n_n.lhsIdx (ix2 p j) ((contrEquiv1 Cert.ReferenceIdeal.dot_S50000x256_S256x128_S50000x128_1_0_0_1_n_n 256 rfl rfl).symm k) = ix2 p k :=
    funext fun a => Fin.ext (by
      match a with
      | ⟨0, _⟩ => exact whole128_lhs0 _ _
      | ⟨1, _⟩ => exact (whole128_lhs1 _ _).trans hk)
  have er : Cert.ReferenceIdeal.dot_S50000x256_S256x128_S50000x128_1_0_0_1_n_n.rhsIdx (ix2 p j) ((contrEquiv1 Cert.ReferenceIdeal.dot_S50000x256_S256x128_S50000x128_1_0_0_1_n_n 256 rfl rfl).symm k) = ix2 k j :=
    funext fun a => Fin.ext (by
      match a with
      | ⟨0, _⟩ => exact (whole128_rhs0 _ _).trans hk
      | ⟨1, _⟩ => exact whole128_rhs1 _ _)
  rw [el, er]

end Cols128

end Cert.Gcn.Product

end
-- ==== Proof.ProductArray1.lean ====
/-
  The first layer's matrix product, from blocks to the whole array.

  The launch walks ten grid points. Point t reads rows 5000·t … 5000·t + 4999 of the left matrix and the whole right
  matrix, multiplies, and writes the 5000 × 256 product back to the same rows of the output. The ten row ranges tile the
  50000 rows, so when the launch is over the output array holds, at every (row, column), the sum over the 256 inner
  positions of left(row, ·) · right(·, column) — that is, the whole product of the two arrays as the launch found them.
  The launch's entry contents are a parameter here: the run supplies them.
-/
import proofs.«139344_j67336497266833_1_alg».proof.Proof.Gen.KernelIdeal.Frame
import proofs.«139344_j67336497266833_1_alg».proof.Proof.ProductEntry
import Idealize.ShloMosaic.Lib.Pipeline.Value
import Idealize.ShloMosaic.Lib.ValueIdx

set_option maxRecDepth 16384

noncomputable section

namespace Cert.KernelIdeal.ProductArray1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole product of the two arrays the launch reads, as it finds them. -/
def whole (c : Dev nD) : FVec Ideal S50000x256 .f32 :=
  Host.dotGeneral (F := Ideal) (φ₁ := .f32) (φ₂ := .f32) Cert.ReferenceIdeal.dot_S50000x256_S256x256_S50000x256_1_0_0_1_n_n none
    (V c main_v10 : FVec Ideal S50000x256 .f32) (V c main_arg3 : FVec Ideal S256x256 .f32)

/-- One entry of a block's product is the matching entry of the whole product, once the block's rows are the whole
    left matrix's rows at the block's offset, the right matrices agree, and the columns agree. -/
theorem entry_eq (x0 : Vec Ideal S5000x256 .f32) (x1 : Vec Ideal S256x256 .f32)
    (X : FVec Ideal S50000x256 .f32) (W : FVec Ideal S256x256 .f32) (y : S5000x256.Idx) (i : S50000x256.Idx)
    (hrow : ∀ k : Fin 256, x0 (ix2 (y 0 : Fin 5000) k) = X (ix2 (i 0 : Fin 50000) k)) (hW : x1 = W) (hcol : (i 1).val = (y 1).val) :
    k0_pay1 (F := Ideal) x0 x1 y = Host.dotGeneral (F := Ideal) Cert.ReferenceIdeal.dot_S50000x256_S256x256_S50000x256_1_0_0_1_n_n none X W i := by
  obtain ⟨r, j, rfl⟩ : ∃ (r : Fin 5000) (j : Fin 256), y = ix2 r j := ⟨y 0, y 1, eq_ix2 y⟩
  obtain ⟨p, j', rfl⟩ : ∃ (p : Fin 50000) (j' : Fin 256), i = ix2 p j' := ⟨i 0, i 1, eq_ix2 i⟩
  have hj : j' = j := Fin.ext hcol
  subst hj hW
  rw [Cert.Gcn.Product.blockProduct256_apply, Cert.Gcn.Product.wholeProduct256_apply]
  exact Finset.sum_congr rfl fun k _ => by rw [hrow k]

/-- The printed index maps over the grid: the left matrix's block and the output's block sit at the same row offset,
    the point's number, and at column offset 0; the right matrix is always block (0, 0). -/
theorem offsets : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x256) origin]
  obtain ⟨e00, e01, e10, e11, e20, e21⟩ := offsets t
  funext y
  show k0_pay1 (F := Ideal) (iblk0 V c 0 t) (iblk0 V c 1 t) y = whole V c (((cfg0.win 2).blk t).view.emb y)
  unfold whole
  refine entry_eq (iblk0 V c 0 t) (iblk0 V c 1 t) (V c main_v10) (V c main_arg3) y (((cfg0.win 2).blk t).view.emb y) (fun k => ?_) ?_ ?_
  · show V c main_v10 (((cfg0.win 0).blk t).view.emb (ix2 (y 0 : Fin 5000) k)) = V c main_v10 (ix2 ((((cfg0.win 2).blk t).view.emb y) 0 : Fin 50000) k)
    refine congrArg (V c main_v10) (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 256 + 1 * k.val = k.val; omega
  · funext z
    show V c main_arg3 (((cfg0.win 1).blk t).view.emb z) = V c main_arg3 z
    refine congrArg (V c main_arg3) (funext fun a => Fin.ext ?_)
    match a with
    | ⟨0, _⟩ => show win0_1.index t (0 : Fin 2) * 256 + 1 * (z 0).val = (z 0).val; omega
    | ⟨1, _⟩ => show win0_1.index t (1 : Fin 2) * 256 + 1 * (z 1).val = (z 1).val; omega
  · show win0_2.index t (1 : Fin 2) * 256 + 1 * (y 1).val = (y 1).val; omega

/-- An index of the output array is in point `t`'s block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v34).slice (win0_2.rect t)).set ↔ _
  rw [View.set_slice_whole, Rect.mem_set_unit]
  exact Iff.rfl

/-- Every entry of the output lies in some point's block: row `p` in the block of point `p / 5000`. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  refine ⟨⟨(i 0).val / 5000, by rw [show cfg0.N = 10 from N_0]; omega⟩, flush0_2 _, ?_⟩
  rw [mem_blk]
  obtain ⟨e00, e01, e10, e11, e20, e21⟩ := offsets ⟨(i 0).val / 5000, by rw [show cfg0.N = 10 from N_0]; omega⟩
  intro a
  match a with
  | ⟨0, _⟩ =>
    show win0_2.index _ (0 : Fin 2) * 5000 ≤ (i 0).val ∧ (i 0).val < win0_2.index _ (0 : Fin 2) * 5000 + 5000
    rw [e20]; show (i 0).val / 5000 * 5000 ≤ (i 0).val ∧ (i 0).val < (i 0).val / 5000 * 5000 + 5000; omega
  | ⟨1, _⟩ =>
    show win0_2.index _ (1 : Fin 2) * 256 ≤ (i 1).val ∧ (i 1).val < win0_2.index _ (1 : Fin 2) * 256 + 256
    rw [e21]; omega

/-- After the launch the output array is the whole product of the two arrays the launch found. -/
theorem array_eq (c : Dev nD) : (dat0 V c).arrAt 2 cfg0.N = whole V c :=
  (dat0 V c).arrAt_eq_of_cover 2 (whole V c) (fun t _ => flushed_eq V c t) (covered)

end Cert.KernelIdeal.ProductArray1

end
-- ==== Proof.ProductArray2.lean ====
/-
  The second layer's matrix product, from blocks to the whole array.

  The launch walks ten grid points. Point t reads rows 5000·t … 5000·t + 4999 of the left matrix and the whole right
  matrix, multiplies, and writes the 5000 × 128 product back to the same rows of the output. The ten row ranges tile the
  50000 rows, so when the launch is over the output array holds, at every (row, column), the sum over the 256 inner
  positions of left(row, ·) · right(·, column) — that is, the whole product of the two arrays as the launch found them.
  The launch's entry contents are a parameter here: the run supplies them.
-/
import proofs.«139344_j67336497266833_1_alg».proof.Proof.Gen.KernelIdeal.Frame
import proofs.«139344_j67336497266833_1_alg».proof.Proof.ProductEntry
import Idealize.ShloMosaic.Lib.Pipeline.Value
import Idealize.ShloMosaic.Lib.ValueIdx

set_option maxRecDepth 16384

noncomputable section

namespace Cert.KernelIdeal.ProductArray2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole product of the two arrays the launch reads, as it finds them. -/
def whole (c : Dev nD) : FVec Ideal S50000x128 .f32 :=
  Host.dotGeneral (F := Ideal) (φ₁ := .f32) (φ₂ := .f32) Cert.ReferenceIdeal.dot_S50000x256_S256x128_S50000x128_1_0_0_1_n_n none
    (V c main_v49 : FVec Ideal S50000x256 .f32) (V c main_arg5 : FVec Ideal S256x128 .f32)

/-- One entry of a block's product is the matching entry of the whole product, once the block's rows are the whole
    left matrix's rows at the block's offset, the right matrices agree, and the columns agree. -/
theorem entry_eq (x0 : Vec Ideal S5000x256 .f32) (x1 : Vec Ideal S256x128 .f32)
    (X : FVec Ideal S50000x256 .f32) (W : FVec Ideal S256x128 .f32) (y : S5000x128.Idx) (i : S50000x128.Idx)
    (hrow : ∀ k : Fin 256, x0 (ix2 (y 0 : Fin 5000) k) = X (ix2 (i 0 : Fin 50000) k)) (hW : x1 = W) (hcol : (i 1).val = (y 1).val) :
    k2_pay1 (F := Ideal) x0 x1 y = Host.dotGeneral (F := Ideal) Cert.ReferenceIdeal.dot_S50000x256_S256x128_S50000x128_1_0_0_1_n_n none X W i := by
  obtain ⟨r, j, rfl⟩ : ∃ (r : Fin 5000) (j : Fin 128), y = ix2 r j := ⟨y 0, y 1, eq_ix2 y⟩
  obtain ⟨p, j', rfl⟩ : ∃ (p : Fin 50000) (j' : Fin 128), i = ix2 p j' := ⟨i 0, i 1, eq_ix2 i⟩
  have hj : j' = j := Fin.ext hcol
  subst hj hW
  rw [Cert.Gcn.Product.blockProduct128_apply, Cert.Gcn.Product.wholeProduct128_apply]
  exact Finset.sum_congr rfl fun k _ => by rw [hrow k]

/-- The printed index maps over the grid: the left matrix's block and the output's block sit at the same row offset,
    the point's number, and at column offset 0; the right matrix is always block (0, 0). -/
theorem offsets : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product. -/
theorem flushed_eq (c : Dev nD) (t : Fin cfg2.N) :
    (dat2 V c).flushed 2 t = ((cfg2.win 2).blk t).view.read (Elt Ideal) (whole V c) := by
  show (cfg2.win 2).cut (grid2.coords t) ((dat2 V c).after 2 t) = _
  rw [after2_2]
  unfold out2_2
  rw [View.canon_unit_zero origin]
  simp only [View.ld_unit_zero (S := S5000x256) origin, View.ld_unit_zero (S := S256x128) origin]
  obtain ⟨e00, e01, e10, e11, e20, e21⟩ := offsets t
  funext y
  show k2_pay1 (F := Ideal) (iblk2 V c 0 t) (iblk2 V c 1 t) y = whole V c (((cfg2.win 2).blk t).view.emb y)
  unfold whole
  refine entry_eq (iblk2 V c 0 t) (iblk2 V c 1 t) (V c main_v49) (V c main_arg5) y (((cfg2.win 2).blk t).view.emb y) (fun k => ?_) ?_ ?_
  · show V c main_v49 (((cfg2.win 0).blk t).view.emb (ix2 (y 0 : Fin 5000) k)) = V c main_v49 (ix2 ((((cfg2.win 2).blk t).view.emb y) 0 : Fin 50000) k)
    refine congrArg (V c main_v49) (funext fun a => Fin.ext ?_)
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 256 + 1 * k.val = k.val; omega
  · funext z
    show V c main_arg5 (((cfg2.win 1).blk t).view.emb z) = V c main_arg5 z
    refine congrArg (V c main_arg5) (funext fun a => Fin.ext ?_)
    match a with
    | ⟨0, _⟩ => show win2_1.index t (0 : Fin 2) * 256 + 1 * (z 0).val = (z 0).val; omega
    | ⟨1, _⟩ => show win2_1.index t (1 : Fin 2) * 128 + 1 * (z 1).val = (z 1).val; omega
  · show win2_2.index t (1 : Fin 2) * 128 + 1 * (y 1).val = (y 1).val; omega

/-- An index of the output array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v50).slice (win2_2.rect t)).set ↔ _
  rw [View.set_slice_whole, Rect.mem_set_unit]
  exact Iff.rfl

/-- Every entry of the output lies in some point's block: row `p` in the block of point `p / 5000`. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  refine ⟨⟨(i 0).val / 5000, by rw [show cfg2.N = 10 from N_2]; omega⟩, flush2_2 _, ?_⟩
  rw [mem_blk]
  obtain ⟨e00, e01, e10, e11, e20, e21⟩ := offsets ⟨(i 0).val / 5000, by rw [show cfg2.N = 10 from N_2]; omega⟩
  intro a
  match a with
  | ⟨0, _⟩ =>
    show win2_2.index _ (0 : Fin 2) * 5000 ≤ (i 0).val ∧ (i 0).val < win2_2.index _ (0 : Fin 2) * 5000 + 5000
    rw [e20]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e21]; omega

/-- After the launch the output array is the whole product of the two arrays the launch found. -/
theorem array_eq (c : Dev nD) : (dat2 V c).arrAt 2 cfg2.N = whole V c :=
  (dat2 V c).arrAt_eq_of_cover 2 (whole V c) (fun t _ => flushed_eq V c t) (covered)

end Cert.KernelIdeal.ProductArray2

end
-- ==== Proof.Fold.lean ====
/-
  The buffers' contents followed from launch to launch.

  Boundary by boundary: a launch leaves in its output array the whole-array expression of what it found in its input
  arrays (the four modules on the launches), and leaves every other buffer alone; a stretch of host arithmetic leaves
  in each buffer it writes the corresponding graph function of the buffers it reads, and leaves every other buffer
  alone. Followed from the start to the return this makes the result buffer hold the network — features, first layer,
  second layer — of the seven argument arrays. The graph quantities (sources, targets, edge weights, loop weights) are
  computed once before the first launch and are carried unchanged to both layers.
-/
import proofs.«139344_j67336497266833_1_alg».proof.Proof.AtFirstLaunch
import proofs.«139344_j67336497266833_1_alg».proof.Proof.Layers
import proofs.«139344_j67336497266833_1_alg».proof.Proof.ProductArray1
import proofs.«139344_j67336497266833_1_alg».proof.Proof.ProductArray2
import Idealize.ShloMosaic.Lib.StableHlo.Run

set_option maxRecDepth 16384

noncomputable section

namespace Cert.KernelIdeal.Fold

open Cert.KernelIdeal Cert.KernelIdeal.Facts₀ Cert.KernelIdeal.Facts Cert.KernelIdeal.Gen Cert.KernelIdeal.Terms Cert.KernelIdeal.Layers Cert.KernelIdeal.AtFirstLaunch Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first launch (the first layer's product) -/

/-- The first launch's output is the first layer's product of the features. -/
theorem W2_product : W2 m ρ c (Proc.devRef .tc main_v34) = (product1 (features (m ((c : Thread nD τ).loc main_arg0) : IVec S50000 32) (m ((c : Thread nD τ).loc main_arg2) : FVec Ideal S50000x256 .f32)) (m ((c : Thread nD τ).loc main_arg3) : FVec Ideal S256x256 .f32)) := by
  refine (W2_arr m ρ c 2).trans ((ProductArray1.array_eq (V1 m ρ) c).trans ?_)
  unfold ProductArray1.whole product1
  show Host.dotGeneral (F := Ideal) (φ₁ := .f32) (φ₂ := .f32) Cert.ReferenceIdeal.dot_S50000x256_S256x256_S50000x256_1_0_0_1_n_n none (W1 m ρ c (Proc.devRef .tc main_v10)) (W1 m ρ c (Proc.devRef .tc main_arg3)) = _
  rw [features_eq, arg3_eq]
theorem W2_v1 : W2 m ρ c (Proc.devRef .tc main_v1) = (sources (m ((c : Thread nD τ).loc main_arg1) : IVec S2x800000 32)) := (W2_of_ne m ρ c main_v1 (by decide)).trans (src_eq m ρ c)
theorem W2_v3 : W2 m ρ c (Proc.devRef .tc main_v3) = (targets (m ((c : Thread nD τ).loc main_arg1) : IVec S2x800000 32)) := (W2_of_ne m ρ c main_v3 (by decide)).trans (tgt_eq m ρ c)
theorem W2_v32 : W2 m ρ c (Proc.devRef .tc main_v32) = (edgeWeight (sources (m ((c : Thread nD τ).loc main_arg1) : IVec S2x800000 32)) (targets (m ((c : Thread nD τ).loc main_arg1) : IVec S2x800000 32))) := (W2_of_ne m ρ c main_v32 (by decide)).trans (edgeWeight_eq m ρ c)
theorem W2_v33 : W2 m ρ c (Proc.devRef .tc main_v33) = (loopWeight (targets (m ((c : Thread nD τ).loc main_arg1) : IVec S2x800000 32))) := (W2_of_ne m ρ c main_v33 (by decide)).trans (loopWeight_eq m ρ c)
theorem W2_arg4 : W2 m ρ c (Proc.devRef .tc main_arg4) = (m ((c : Thread nD τ).loc main_arg4) : FVec Ideal S256 .f32) := (W2_of_ne m ρ c main_arg4 (by decide)).trans (arg4_eq m ρ c)
theorem W2_arg5 : W2 m ρ c (Proc.devRef .tc main_arg5) = (m ((c : Thread nD τ).loc main_arg5) : FVec Ideal S256x128 .f32) := (W2_of_ne m ρ c main_arg5 (by decide)).trans (arg5_eq m ρ c)
theorem W2_arg6 : W2 m ρ c (Proc.devRef .tc main_arg6) = (m ((c : Thread nD τ).loc main_arg6) : FVec Ideal S128 .f32) := (W2_of_ne m ρ c main_arg6 (by decide)).trans (arg6_eq m ρ c)

/-! ## When the second launch starts (after the first layer's neighbour sums) -/

theorem W3_neighbourSum_raw : W3 m ρ c (Proc.devRef .tc main_v47)
    = neighbourSum256 (W2 m ρ c (Proc.devRef .tc main_v34)) (W2 m ρ c (Proc.devRef .tc main_v1)) (W2 m ρ c (Proc.devRef .tc main_v3)) (W2 m ρ c (Proc.devRef .tc main_v32)) := by
  show StableHlo.after hostOps1 (W2 m ρ c) (Proc.devRef .tc main_v47) = _
  after_results_simp <;> rfl
/-- The neighbour sums of the first layer's product. -/
theorem W3_neighbourSum : W3 m ρ c (Proc.devRef .tc main_v47) = (neighbourSum256 (product1 (features (m ((c : Thread nD τ).loc main_arg0) : IVec S50000 32) (m ((c : Thread nD τ).loc main_arg2) : FVec Ideal S50000x256 .f32)) (m ((c : Thread nD τ).loc main_arg3) : FVec Ideal S256x256 .f32)) (sources (m ((c : Thread nD τ).loc main_arg1) : IVec S2x800000 32)) (targets (m ((c : Thread nD τ).loc main_arg1) : IVec S2x800000 32)) (edgeWeight (sources (m ((c : Thread nD τ).loc main_arg1) : IVec S2x800000 32)) (targets (m ((c : Thread nD τ).loc main_arg1) : IVec S2x800000 32)))) := by
  rw [W3_neighbourSum_raw, W2_product, W2_v1, W2_v3, W2_v32]
theorem W3_loopColumn_raw : W3 m ρ c (Proc.devRef .tc main_v48) = shapeCast S50000x1 (W2 m ρ c (Proc.devRef .tc main_v33)) Facts₀.shapeCasts_S50000_S50000x1 := by
  show StableHlo.after hostOps1 (W2 m ρ c) (Proc.devRef .tc main_v48) = _
  after_results_simp <;> rfl
/-- The loop weights as a column. -/
theorem W3_loopColumn : W3 m ρ c (Proc.devRef .tc main_v48) = loopColumn (targets (m ((c : Thread nD τ).loc main_arg1) : IVec S2x800000 32)) := by
  rw [W3_loopColumn_raw, W2_v33]; rfl
theorem W3_v34_kept : W3 m ρ c (Proc.devRef .tc main_v34) = W2 m ρ c (Proc.devRef .tc main_v34) := by
  show StableHlo.after hostOps1 (W2 m ρ c) (Proc.devRef .tc main_v34) = _
  after_results_simp <;> rfl
theorem W3_v1_kept : W3 m ρ c (Proc.devRef .tc main_v1) = W2 m ρ c (Proc.devRef .tc main_v1) := by
  show StableHlo.after hostOps1 (W2 m ρ c) (Proc.devRef .tc main_v1) = _
  after_results_simp <;> rfl
theorem W3_v3_kept : W3 m ρ c (Proc.devRef .tc main_v3) = W2 m ρ c (Proc.devRef .tc main_v3) := by
  show StableHlo.after hostOps1 (W2 m ρ c) (Proc.devRef .tc main_v3) = _
  after_results_simp <;> rfl
theorem W3_v32_kept : W3 m ρ c (Proc.devRef .tc main_v32) = W2 m ρ c (Proc.devRef .tc main_v32) := by
  show StableHlo.after hostOps1 (W2 m ρ c) (Proc.devRef .tc main_v32) = _
  after_results_simp <;> rfl
theorem W3_v33_kept : W3 m ρ c (Proc.devRef .tc main_v33) = W2 m ρ c (Proc.devRef .tc main_v33) := by
  show StableHlo.after hostOps1 (W2 m ρ c) (Proc.devRef .tc main_v33) = _
  after_results_simp <;> rfl
theorem W3_arg4_kept : W3 m ρ c (Proc.devRef .tc main_arg4) = W2 m ρ c (Proc.devRef .tc main_arg4) := by
  show StableHlo.after hostOps1 (W2 m ρ c) (Proc.devRef .tc main_arg4) = _
  after_results_simp <;> rfl
theorem W3_arg5_kept : W3 m ρ c (Proc.devRef .tc main_arg5) = W2 m ρ c (Proc.devRef .tc main_arg5) := by
  show StableHlo.after hostOps1 (W2 m ρ c) (Proc.devRef .tc main_arg5) = _
  after_results_simp <;> rfl
theorem W3_arg6_kept : W3 m ρ c (Proc.devRef .tc main_arg6) = W2 m ρ c (Proc.devRef .tc main_arg6) := by
  show StableHlo.after hostOps1 (W2 m ρ c) (Proc.devRef .tc main_arg6) = _
  after_results_simp <;> rfl

/-! ## After the second launch (the first layer closed) and the third (the second layer's product) -/

/-- The second launch's output is the first layer. -/
theorem W4_layer1 : W4 m ρ c (Proc.devRef .tc main_v49) = (layer1 (features (m ((c : Thread nD τ).loc main_arg0) : IVec S50000 32) (m ((c : Thread nD τ).loc main_arg2) : FVec Ideal S50000x256 .f32)) (sources (m ((c : Thread nD τ).loc main_arg1) : IVec S2x800000 32)) (targets (m ((c : Thread nD τ).loc main_arg1) : IVec S2x800000 32)) (m ((c : Thread nD τ).loc main_arg3) : FVec Ideal S256x256 .f32) (m ((c : Thread nD τ).loc main_arg4) : FVec Ideal S256 .f32)) := by
  refine (W4_arr m ρ c 4).trans ((ClosingArray1.array_eq (V3 m ρ) c).trans ?_)
  unfold ClosingArray1.whole layer1
  show ClosingArray1.closing (W3 m ρ c (Proc.devRef .tc main_v47)) (W3 m ρ c (Proc.devRef .tc main_v34)) (W3 m ρ c (Proc.devRef .tc main_v48)) (W3 m ρ c (Proc.devRef .tc main_arg4)) = _
  rw [W3_neighbourSum, W3_v34_kept, W2_product, W3_loopColumn, W3_arg4_kept, W2_arg4]
theorem W4_v1 : W4 m ρ c (Proc.devRef .tc main_v1) = (sources (m ((c : Thread nD τ).loc main_arg1) : IVec S2x800000 32)) := (W4_of_ne m ρ c main_v1 (by decide)).trans ((W3_v1_kept m ρ c).trans (W2_v1 m ρ c))
theorem W4_v3 : W4 m ρ c (Proc.devRef .tc main_v3) = (targets (m ((c : Thread nD τ).loc main_arg1) : IVec S2x800000 32)) := (W4_of_ne m ρ c main_v3 (by decide)).trans ((W3_v3_kept m ρ c).trans (W2_v3 m ρ c))
theorem W4_v32 : W4 m ρ c (Proc.devRef .tc main_v32) = (edgeWeight (sources (m ((c : Thread nD τ).loc main_arg1) : IVec S2x800000 32)) (targets (m ((c : Thread nD τ).loc main_arg1) : IVec S2x800000 32))) := (W4_of_ne m ρ c main_v32 (by decide)).trans ((W3_v32_kept m ρ c).trans (W2_v32 m ρ c))
theorem W4_v33 : W4 m ρ c (Proc.devRef .tc main_v33) = (loopWeight (targets (m ((c : Thread nD τ).loc main_arg1) : IVec S2x800000 32))) := (W4_of_ne m ρ c main_v33 (by decide)).trans ((W3_v33_kept m ρ c).trans (W2_v33 m ρ c))
theorem W4_arg5 : W4 m ρ c (Proc.devRef .tc main_arg5) = (m ((c : Thread nD τ).loc main_arg5) : FVec Ideal S256x128 .f32) := (W4_of_ne m ρ c main_arg5 (by decide)).trans ((W3_arg5_kept m ρ c).trans (W2_arg5 m ρ c))
theorem W4_arg6 : W4 m ρ c (Proc.devRef .tc main_arg6) = (m ((c : Thread nD τ).loc main_arg6) : FVec Ideal S128 .f32) := (W4_of_ne m ρ c main_arg6 (by decide)).trans ((W3_arg6_kept m ρ c).trans (W2_arg6 m ρ c))

/-- The third launch's output is the second layer's product of the first layer. -/
theorem W5_product : W5 m ρ c (Proc.devRef .tc main_v50) = (product2 (layer1 (features (m ((c : Thread nD τ).loc main_arg0) : IVec S50000 32) (m ((c : Thread nD τ).loc main_arg2) : FVec Ideal S50000x256 .f32)) (sources (m ((c : Thread nD τ).loc main_arg1) : IVec S2x800000 32)) (targets (m ((c : Thread nD τ).loc main_arg1) : IVec S2x800000 32)) (m ((c : Thread nD τ).loc main_arg3) : FVec Ideal S256x256 .f32) (m ((c : Thread nD τ).loc main_arg4) : FVec Ideal S256 .f32)) (m ((c : Thread nD τ).loc main_arg5) : FVec Ideal S256x128 .f32)) := by
  refine (W5_arr m ρ c 2).trans ((ProductArray2.array_eq (V4 m ρ) c).trans ?_)
  unfold ProductArray2.whole product2
  show Host.dotGeneral (F := Ideal) (φ₁ := .f32) (φ₂ := .f32) Cert.ReferenceIdeal.dot_S50000x256_S256x128_S50000x128_1_0_0_1_n_n none (W4 m ρ c (Proc.devRef .tc main_v49)) (W4 m ρ c (Proc.devRef .tc main_arg5)) = _
  rw [W4_layer1, W4_arg5]
theorem W5_v1 : W5 m ρ c (Proc.devRef .tc main_v1) = (sources (m ((c : Thread nD τ).loc main_arg1) : IVec S2x800000 32)) := (W5_of_ne m ρ c main_v1 (by decide)).trans (W4_v1 m ρ c)
theorem W5_v3 : W5 m ρ c (Proc.devRef .tc main_v3) = (targets (m ((c : Thread nD τ).loc main_arg1) : IVec S2x800000 32)) := (W5_of_ne m ρ c main_v3 (by decide)).trans (W4_v3 m ρ c)
theorem W5_v32 : W5 m ρ c (Proc.devRef .tc main_v32) = (edgeWeight (sources (m ((c : Thread nD τ).loc main_arg1) : IVec S2x800000 32)) (targets (m ((c : Thread nD τ).loc main_arg1) : IVec S2x800000 32))) := (W5_of_ne m ρ c main_v32 (by decide)).trans (W4_v32 m ρ c)
theorem W5_v33 : W5 m ρ c (Proc.devRef .tc main_v33) = (loopWeight (targets (m ((c : Thread nD τ).loc main_arg1) : IVec S2x800000 32))) := (W5_of_ne m ρ c main_v33 (by decide)).trans (W4_v33 m ρ c)
theorem W5_arg6 : W5 m ρ c (Proc.devRef .tc main_arg6) = (m ((c : Thread nD τ).loc main_arg6) : FVec Ideal S128 .f32) := (W5_of_ne m ρ c main_arg6 (by decide)).trans (W4_arg6 m ρ c)

/-! ## When the fourth launch starts (after the second layer's neighbour sums) -/

theorem W6_neighbourSum_raw : W6 m ρ c (Proc.devRef .tc main_v63)
    = neighbourSum128 (W5 m ρ c (Proc.devRef .tc main_v50)) (W5 m ρ c (Proc.devRef .tc main_v1)) (W5 m ρ c (Proc.devRef .tc main_v3)) (W5 m ρ c (Proc.devRef .tc main_v32)) := by
  show StableHlo.after hostOps3 (W5 m ρ c) (Proc.devRef .tc main_v63) = _
  after_results_simp <;> rfl
/-- The neighbour sums of the second layer's product. -/
theorem W6_neighbourSum : W6 m ρ c (Proc.devRef .tc main_v63) = (neighbourSum128 (product2 (layer1 (features (m ((c : Thread nD τ).loc main_arg0) : IVec S50000 32) (m ((c : Thread nD τ).loc main_arg2) : FVec Ideal S50000x256 .f32)) (sources (m ((c : Thread nD τ).loc main_arg1) : IVec S2x800000 32)) (targets (m ((c : Thread nD τ).loc main_arg1) : IVec S2x800000 32)) (m ((c : Thread nD τ).loc main_arg3) : FVec Ideal S256x256 .f32) (m ((c : Thread nD τ).loc main_arg4) : FVec Ideal S256 .f32)) (m ((c : Thread nD τ).loc main_arg5) : FVec Ideal S256x128 .f32)) (sources (m ((c : Thread nD τ).loc main_arg1) : IVec S2x800000 32)) (targets (m ((c : Thread nD τ).loc main_arg1) : IVec S2x800000 32)) (edgeWeight (sources (m ((c : Thread nD τ).loc main_arg1) : IVec S2x800000 32)) (targets (m ((c : Thread nD τ).loc main_arg1) : IVec S2x800000 32)))) := by
  rw [W6_neighbourSum_raw, W5_product, W5_v1, W5_v3, W5_v32]
theorem W6_loopColumn_raw : W6 m ρ c (Proc.devRef .tc main_v64) = shapeCast S50000x1 (W5 m ρ c (Proc.devRef .tc main_v33)) Facts₀.shapeCasts_S50000_S50000x1 := by
  show StableHlo.after hostOps3 (W5 m ρ c) (Proc.devRef .tc main_v64) = _
  after_results_simp <;> rfl
theorem W6_loopColumn : W6 m ρ c (Proc.devRef .tc main_v64) = loopColumn (targets (m ((c : Thread nD τ).loc main_arg1) : IVec S2x800000 32)) := by
  rw [W6_loopColumn_raw, W5_v33]; rfl
theorem W6_v50_kept : W6 m ρ c (Proc.devRef .tc main_v50) = W5 m ρ c (Proc.devRef .tc main_v50) := by
  show StableHlo.after hostOps3 (W5 m ρ c) (Proc.devRef .tc main_v50) = _
  after_results_simp <;> rfl
theorem W6_arg6_kept : W6 m ρ c (Proc.devRef .tc main_arg6) = W5 m ρ c (Proc.devRef .tc main_arg6) := by
  show StableHlo.after hostOps3 (W5 m ρ c) (Proc.devRef .tc main_arg6) = _
  after_results_simp <;> rfl

/-! ## At the return -/

/-- The fourth launch's output — the program's result — is the network of the seven arguments. -/
theorem W7_result : W7 m ρ c (Proc.devRef .tc main_v65) = (network (m ((c : Thread nD τ).loc main_arg0) : IVec S50000 32) (m ((c : Thread nD τ).loc main_arg1) : IVec S2x800000 32) (m ((c : Thread nD τ).loc main_arg2) : FVec Ideal S50000x256 .f32) (m ((c : Thread nD τ).loc main_arg3) : FVec Ideal S256x256 .f32) (m ((c : Thread nD τ).loc main_arg4) : FVec Ideal S256 .f32) (m ((c : Thread nD τ).loc main_arg5) : FVec Ideal S256x128 .f32) (m ((c : Thread nD τ).loc main_arg6) : FVec Ideal S128 .f32)) := by
  refine (W7_arr m ρ c 4).trans ((ClosingArray2.array_eq (V6 m ρ) c).trans ?_)
  unfold ClosingArray2.whole network layer2
  show ClosingArray2.closing (W6 m ρ c (Proc.devRef .tc main_v63)) (W6 m ρ c (Proc.devRef .tc main_v50)) (W6 m ρ c (Proc.devRef .tc main_v64)) (W6 m ρ c (Proc.devRef .tc main_arg6)) = _
  rw [W6_neighbourSum, W6_v50_kept, W5_product, W6_loopColumn, W6_arg6_kept, W5_arg6]

end Cert.KernelIdeal.Fold

end
-- ==== Proof.Bridge.lean ====
/-
  The network is what the reference computes.

  The reference is written as one whole-array program: features, then per layer a matrix product, the neighbour sums,
  the own-row term and the bias, with a maximum against zero between the layers. It recomputes the degrees and the edge
  and loop weights in each layer from the same edge list, by the same operations — the same numbers. Read as a term of
  its seven arguments it is the network operation for operation, with one difference of spelling: the loop weights,
  one per node, are made into a 50000 × 1 column by a reshape on one side and by a broadcast along the first axis on
  the other. Both put weight p at entry (p, 0).
-/
import proofs.«139344_j67336497266833_1_alg».proof.Proof.Layers
import proofs.«139344_j67336497266833_1_alg».proof.Proof.Gen.ReferenceIdeal.Run
import Idealize.ShloMosaic.Lib.Pipeline.Value
import Idealize.ShloMosaic.Lib.ValueIdx

set_option maxRecDepth 16384

noncomputable section

namespace Cert.Gcn.Bridge

open Idealize.ShloMosaic Idealize.ShloMosaic.TcCoe Idealize.ShloMosaic.ValueIdx Idealize.SL.Sem

/-- A vector of 50000 entries made into a 50000 × 1 column: by a reshape, or by a broadcast along axis 0. -/
theorem column_eq {α : Type} (x : Cert.KernelIdeal.S50000.Idx → α) :
    shapeCast Cert.KernelIdeal.S50000x1 x Cert.KernelIdeal.Facts₀.shapeCasts_S50000_S50000x1
      = broadcastInDim Cert.ReferenceIdeal.S50000x1 ![0] Cert.ReferenceIdeal.Facts₀.bcast_S50000_S50000x1_0 x := by
  funext i
  obtain ⟨p, q, rfl⟩ : ∃ (p : Fin 50000) (q : Fin 1), i = ix2 p q := ⟨i 0, i 1, eq_ix2 i⟩
  have e1 := shapeCast_apply x Cert.KernelIdeal.Facts₀.shapeCasts_S50000_S50000x1 (ix2 p q) (ix1 p) (by
    rw [Shape.rowMajor_val_one, Shape.rowMajor_val_two]
    show p.val = p.val * 1 + q.val
    have := q.isLt; omega)
  have e2 := broadcastInDim_apply ![0] Cert.ReferenceIdeal.Facts₀.bcast_S50000_S50000x1_0 x (ix2 p q) (ix1 p) (fun ax => by
    match ax with
    | ⟨0, _⟩ => rfl)
  exact e1.trans e2.symm

/-- The reference's result, as a term of its seven arguments, is the network of them. -/
theorem reference_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v99 (F := Ideal) m' c
      = Cert.KernelIdeal.Layers.network
          (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) := by
  unfold Cert.ReferenceIdeal.Value.res_main_v99
  unfold Cert.KernelIdeal.Layers.network Cert.KernelIdeal.Layers.layer2 Cert.KernelIdeal.Layers.layer1 Cert.KernelIdeal.ClosingArray2.closing Cert.KernelIdeal.ClosingArray1.closing
    Cert.KernelIdeal.Terms.loopColumn
  rw [column_eq]
  rfl

end Cert.Gcn.Bridge

end
-- ==== Proof.lean ====
/-
  A two-layer graph convolution, computed by four kernel launches among host arithmetic, against its whole-array
  reference — equal on the extended reals.

  Both programs compute, over 50000 nodes and 800000 edges,
      layer(h, W, b)(v) = Σ over edges u → v of d(u)·d(v)·(h W)(u) + d(v)²·(h W)(v) + b,     d = (1 + in-degree)^(-1/2),
  twice, with max(·, 0) between the layers, starting from rows of an embedding table. The kernel program forms each
  product h W in ten blocks of 5000 rows (after a change of float format that the extended reals do not see) and each
  closing step (…) + d²·(h W) + b in ten such blocks as well; the reference forms them whole. A block of rows of a
  product is those rows of the product, entry for entry the same sum of 256 terms, and the closing step is entrywise,
  so the blocks assemble to the whole-array expressions and the two programs compute one function of their arguments.
  No rearrangement of a sum and no cancellation is involved, so nothing is asked of the inputs: the precondition
  (finite inputs) is not used.

  The three run claims: the two kernel programs' by their launch-by-launch runs, the reference's by its run as a
  sequence of host operations. The idealization changed nothing in the kernel program's text, so that claim is empty.
-/
import proofs.«139344_j67336497266833_1_alg».proof.Defs
import proofs.«139344_j67336497266833_1_alg».proof.Proof.Gen.Kernel
import proofs.«139344_j67336497266833_1_alg».proof.Proof.Gen.Kernel.Frame
import proofs.«139344_j67336497266833_1_alg».proof.Proof.Gen.KernelIdeal
import proofs.«139344_j67336497266833_1_alg».proof.Proof.Gen.KernelIdeal.Frame
import proofs.«139344_j67336497266833_1_alg».proof.Proof.Gen.ReferenceIdeal
import proofs.«139344_j67336497266833_1_alg».proof.Proof.Gen.ReferenceIdeal.Run
import proofs.«139344_j67336497266833_1_alg».proof.Proof.Gen.Pre_finite_inputs
import proofs.«139344_j67336497266833_1_alg».proof.Proof.KernelRun
import proofs.«139344_j67336497266833_1_alg».proof.Proof.Fold
import proofs.«139344_j67336497266833_1_alg».proof.Proof.Bridge
import Idealize.ShloMosaic.Adequacy
import Idealize.ShloMosaic.Init

noncomputable section

namespace Cert.Proof

open Idealize.ShloMosaic Idealize.SL.Sem

/-- The kernel program runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run as a sequence of host operations, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel program and its reading on the extended reals. -/
theorem preserves : Cert.preserves_Kernel_KernelIdeal := trivial

/-- From memories that agree on the seven arguments both programs end with the network of those arguments in their
    result: the kernel program by following its buffers from launch to launch, the reference by reading its composed
    term. -/
theorem algebraic : Cert.algebraic_KernelIdeal_ReferenceIdeal := by
  intro m ρ m' ρ' _ hagree
  refine ⟨fun c => Cert.KernelIdeal.Layers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.W7_result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.Gcn.Bridge.reference_eq m' c, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
